-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S192x64 : Shape := ⟨2, ![192, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S192x64 : S_.BroadcastsInDim S192x64 (![] : Fin 0 → Fin S192x64.rank)
  reducesTo_S192x64_S_d0_1 : S192x64.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S100000x64 .f32) (main_arg1 : IVec S2x1600000 32) (main_arg2 : FVec F S192x64 .f32) (main_arg3 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S192x64 .f32 := Host.absf main_arg2
  let main_cst_0 : FVec F S_ .f32 := constant S_ .f32 0x7F800000#32
  let main_v5 : FVec F S192x64 .f32 := broadcastInDim S192x64 ![] bcast_S_S192x64 main_cst_0
  let main_v6 : IVec S192x64 1 := cmpf .olt main_v4 main_v5
  let main_c_1 : IVec S_ 1 := constantI S_ 1 1#1
  let main_v7 : IVec S_ 1 := (fun x v => Host.reduce IntOp.andi x v reducesTo_S192x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S100000x64 : Shape := ⟨2, ![100000, 64]⟩
abbrev S2x1600000 : Shape := ⟨2, ![2, 1600000]⟩
abbrev S192x64 : Shape := ⟨2, ![192, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S4096x64 : Shape := ⟨2, ![4096, 64]⟩
abbrev S64x64 : Shape := ⟨2, ![64, 64]⟩

abbrev nBuf : Space → Nat
  | .hbm => 78
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S192x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S1x64, .f32⟩
  | .hbm, ⟨77, _⟩ => ⟨S100000x64, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S192x64, .f32⟩
  | .local _ .vmem, ⟨7, _⟩ => ⟨S1x64, .f32⟩
  | .local _ .vmem, ⟨8, _⟩ => ⟨S4096x64, .f32⟩
  | .local _ .vmem, ⟨9, _⟩ => ⟨S4096x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S192x64_S192x64_0_0 : ∀ a, (![0, 0] : Fin 2 → Nat) a + S192x64.size a ≤ S192x64.size a
  h_S192x64 : 0 < S192x64.numel
  slices_S192x64_o0_0_S64x64 : S192x64.Slices ![0, 0] S64x64
  bitsLt_bf16_f32 : FTy.bits .bf16 < FTy.bits .f32
  slices_S192x64_o64_0_S64x64 : S192x64.Slices ![64, 0] S64x64
  slices_S192x64_o128_0_S64x64 : S192x64.Slices ![128, 0] S64x64
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x64.size a < S100000x64.size a
  hwx0_0 : ∀ i : grid0.Coords, EltTy.bits .f32 = 32 ∨ (Rect.unit (s := S100000x64) (fun a => cc0_transform_0 i a * S4096x64.size a) (fun a => (Pipeline.Clip.of (cc0_transform_0 i a) (S4096x64.size a) (S100000x64.size a)).extent (S4096x64.size a)) fun a => Pipeline.Clip.inb (Pipeline.Clip.ok_of (hstart0_0 i a))).WholeWords (EltTy.packing .f32)
  hwxs0_0 : ∀ i : grid0.Coords, EltTy.bits .f32 = 32 ∨ (Rect.unit (s := S4096x64) (fun _ => 0) (fun a => (Pipeline.Clip.of (cc0_transform_0 i a) (S4096x64.size a) (S100000x64.size a)).extent (S4096x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x64.size a < S100000x64.size a
  hwx0_1 : ∀ i : grid0.Coords, EltTy.bits .f32 = 32 ∨ (Rect.unit (s := S100000x64) (fun a => cc0_transform_1 i a * S4096x64.size a) (fun a => (Pipeline.Clip.of (cc0_transform_1 i a) (S4096x64.size a) (S100000x64.size a)).extent (S4096x64.size a)) fun a => Pipeline.Clip.inb (Pipeline.Clip.ok_of (hstart0_1 i a))).WholeWords (EltTy.packing .f32)
  hwxs0_1 : ∀ i : grid0.Coords, EltTy.bits .f32 = 32 ∨ (Rect.unit (s := S4096x64) (fun _ => 0) (fun a => (Pipeline.Clip.of (cc0_transform_1 i a) (S4096x64.size a) (S100000x64.size a)).extent (S4096x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x64.size a < S100000x64.size a
  hwx0_2 : ∀ i : grid0.Coords, EltTy.bits .f32 = 32 ∨ (Rect.unit (s := S100000x64) (fun a => cc0_transform_2 i a * S4096x64.size a) (fun a => (Pipeline.Clip.of (cc0_transform_2 i a) (S4096x64.size a) (S100000x64.size a)).extent (S4096x64.size a)) fun a => Pipeline.Clip.inb (Pipeline.Clip.ok_of (hstart0_2 i a))).WholeWords (EltTy.packing .f32)
  hwxs0_2 : ∀ i : grid0.Coords, EltTy.bits .f32 = 32 ∨ (Rect.unit (s := S4096x64) (fun _ => 0) (fun a => (Pipeline.Clip.of (cc0_transform_2 i a) (S4096x64.size a) (S100000x64.size a)).extent (S4096x64.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x64.size a ≤ S192x64.size a
  hwx0_3 : ∀ i : grid0.Coords, EltTy.bits .f32 = 32 ∨ (Rect.block (s := S192x64) S192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S4096x64.size a < S100000x64.size a
  hwx0_5 : ∀ i : grid0.Coords, EltTy.bits .f32 = 32 ∨ (Rect.unit (s := S100000x64) (fun a => cc0_transform_5 i a * S4096x64.size a) (fun a => (Pipeline.Clip.of (cc0_transform_5 i a) (S4096x64.size a) (S100000x64.size a)).extent (S4096x64.size a)) fun a => Pipeline.Clip.inb (Pipeline.Clip.ok_of (hstart0_5 i a))).WholeWords (EltTy.packing .f32)
  hwxs0_5 : ∀ i : grid0.Coords, EltTy.bits .f32 = 32 ∨ (Rect.unit (s := S4096x64) (fun _ => 0) (fun a => (Pipeline.Clip.of (cc0_transform_5 i a) (S4096x64.size a) (S100000x64.size a)).extent (S4096x64.size a)) fun a => (Nat.zero_add _).trans_le (Pipeline.Clip.extent_le (Pipeline.Clip.ok_of (hstart0_5 i a)))).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpecClip (Memref.whole main_arg0) S4096x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v44) S4096x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v57) S4096x64.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_arg2) S192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v58) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpecClip (Memref.whole main_v59) S4096x64.size cc0_transform_5 reads0_5 true false 2 stage0_5 sem0_5
    hrank0 hreads0_5 hstart0_5 nbuf0_5 (Memref.isWhole_whole _) hwx0_5 hwxs0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S192x64 : Shape := ⟨2, ![192, 64]⟩
abbrev S64 : Shape := ⟨1, ![64]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S100000x192 : Shape := ⟨2, ![100000, 192]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S192x64, .f32⟩
  | .hbm, ⟨3, _⟩ => ⟨S64, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1700000, .i32⟩
  | .hbm, ⟨26, _⟩ => ⟨S1700000, .i1⟩
  | .hbm, ⟨27, _⟩ => ⟨S_, .i32⟩
  | .hbm, ⟨28, _⟩ => ⟨S1700000, .i32⟩
  | .hbm, ⟨29, _⟩ => ⟨S1700000, .i32⟩
  | .hbm, ⟨30, _⟩ => ⟨S1700000, .i32⟩
  | .hbm, ⟨31, _⟩ => ⟨S1700000x1, .i32⟩
  | .hbm, ⟨32, _⟩ => ⟨S1700000, .f32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S1700000x1, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x64, .f32⟩
  | .hbm, ⟨54, _⟩ => ⟨S1700000x64, .f32⟩
  | .hbm, ⟨55, _⟩ => ⟨S1700000x64, .f32⟩
  | .hbm, ⟨56, _⟩ => ⟨S_, .f32⟩
  | .hbm, ⟨57, _⟩ => ⟨S100000x64, .f32⟩
  | .hbm, ⟨58, _⟩ => ⟨S1700000x1, .i32⟩
  | .hbm, ⟨59, _⟩ => ⟨S100000x64, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x64, .f32⟩
  | .hbm, ⟨70, _⟩ => ⟨S1700000x64, .f32⟩
  | .hbm, ⟨71, _⟩ => ⟨S1700000x64, .f32⟩
  | .hbm, ⟨72, _⟩ => ⟨S_, .f32⟩
  | .hbm, ⟨73, _⟩ => ⟨S100000x64, .f32⟩
  | .hbm, ⟨74, _⟩ => ⟨S1700000x1, .i32⟩
  | .hbm, ⟨75, _⟩ => ⟨S100000x64, .f32⟩
  | .hbm, ⟨76, _⟩ => ⟨S100000x192, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_4 : Ref sig .tc := ⟨.hbm, 34, rfl⟩
abbrev main_v24 : Ref sig .tc := ⟨.hbm, 35, rfl⟩
abbrev main_v25 : Ref sig .tc := ⟨.hbm, 36, rfl⟩
abbrev main_c_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_6 : Ref sig .tc := ⟨.hbm, 45, rfl⟩
abbrev main_v33 : Ref sig .tc := ⟨.hbm, 46, rfl⟩
abbrev main_v34 : Ref sig .tc := ⟨.hbm, 47, rfl⟩
abbrev main_c_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_9 : Ref sig .tc := ⟨.hbm, 61, rfl⟩
abbrev main_v46 : Ref sig .tc := ⟨.hbm, 62, rfl⟩
abbrev main_v47 : Ref sig .tc := ⟨.hbm, 63, rfl⟩
abbrev main_c_10 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_11 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  concatenates_S100000x64_S100000x64_S100000x64_S100000x192_d1 : Shape.Concatenates [S100000x64, S100000x64, S100000x64] S100000x192 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x192_S192x64_S100000x64_1_0_0_1_n_n_wf : DotDims.WF S100000x192 S192x64 S100000x64 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x192_S192x64_S100000x64_1_0_0_1_n_n : DotDims S100000x192 S192x64 S100000x64 where
  lhsContracting := [1]
  rhsContracting := [0]
  lhsNonContracting := [0]
  rhsNonContracting := [1]
  lhsBatch := []
  rhsBatch := []
  wf := dot_S100000x192_S192x64_S100000x64_1_0_0_1_n_n_wf

class Facts : Prop extends Facts₀ where

variable [Facts]
-- ==== Proof.KernelBody.lean ====
/-
  The kernel body's triple.

  One grid point of the row-blocked linear layer works on whole staging buffers: three 4096×64 blocks of rows
  (of `x`, `h1`, `h2`), the 192×64 weight matrix, the 1×64 bias row, and the 4096×64 result block. The body
  loads the five inputs whole, computes ONE value from them — the payload `k0_pay1 W x h1 h2 b` of its single
  store — and stores it over the whole result block (after a load of the result block that nothing reads).
  So, whatever the five input buffers hold and whatever the result buffer held, the body runs without a fault
  and ends with the inputs as they were and the result buffer at `k0_pay1 W x h1 h2 b`. Nothing here depends on
  the float instance: the statement is about memory, the arithmetic stays inside the payload's name.
-/
import proofs.«155070_j50783693308333_2_alg».proof.Proof.Gen.Kernel.Frame
import proofs.«155070_j50783693308333_2_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each buffer whole, at offsets zero -/

abbrev rRows : Rect S4096x64 := Rect.unit (s := S4096x64) ![0, 0] S4096x64.size inb_S4096x64_S4096x64_0_0
abbrev rWeights : Rect S192x64 := Rect.unit (s := S192x64) ![0, 0] S192x64.size inb_S192x64_S192x64_0_0
abbrev rBias : Rect S1x64 := Rect.unit (s := S1x64) ![0, 0] S1x64.size inb_S1x64_S1x64_0_0

theorem zero_offsets : (![0, 0] : Fin 2 → Nat) = fun _ => 0 := funext fun a => by fin_cases a <;> rfl

/-- The result block after the body, as the run leaves it: its one store, through the whole-block rectangle, of
    the payload of the five whole loads. -/
def stored (x0 x1 x2 : Vec F S4096x64 .f32) (x3 : Vec F S192x64 .f32) (x4 : Vec F S1x64 .f32) : Vec F S4096x64 .f32 :=
  View.canon [⟨rRows, k0_pay1 (View.ld x3 rWeights) (View.ld x0 rRows) (View.ld x1 rRows) (View.ld x2 rRows) (View.ld x4 rBias)⟩]

/-- A whole load reads the buffer and one whole store leaves its payload: the result block is the payload of
    the five buffers' contents. -/
theorem stored_eq (x0 x1 x2 : Vec F S4096x64 .f32) (x3 : Vec F S192x64 .f32) (x4 : Vec F S1x64 .f32) :
    stored x0 x1 x2 x3 x4 = k0_pay1 x3 x0 x1 x2 x4 := by
  unfold stored
  rw [View.canon_unit_zero zero_offsets]
  simp only [View.ld_unit_zero (S := S4096x64) zero_offsets, View.ld_unit_zero (S := S192x64) zero_offsets,
    View.ld_unit_zero (S := S1x64) zero_offsets]

/-! ## The triple -/

set_option maxHeartbeats 4000000 in
/-- On whole staging memrefs — the five inputs' at contents `x0 … x4`, the result's at anything — the body runs to
    the continuation holding the inputs' as they were and the result's at the payload of the inputs. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x64 .f32) (harg4 : arg4.IsWhole)
    (arg5 : Memref sig .tc .vmem S1x64 .f32) (harg5 : arg5.IsWhole) (arg6 : Memref sig .tc .vmem S4096x64 .f32) (harg6 : arg6.IsWhole)
    (x0 x1 x2 : Vec F S4096x64 .f32) (x3 : Vec F S192x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x3 x0 x1 x2 x4)) -∗ K ⟨⟩))
      ⊢ wp frame (wpE (defs₀ (F := F)) Variants.none c none) E
          (cc0__linear_kernel i arg1 harg1 arg2 harg2 arg3 harg3 arg4 harg4 arg5 harg5 arg6 harg6) K := by
  rw [← stored_eq x0 x1 x2 x3 x4]
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (fun y => ⟨_, List.mem_singleton_self _, View.mem_set_unit_zero zero_offsets inb_S4096x64_S4096x64_0_0 y⟩)

end Cert.Kernel.Hand

end
-- ==== Proof.KernelFrame.lean ====
/-
  The frame of the row-blocked linear layer's word-level program.

  The pallas_call runs over 25 grid points. Three of its inputs (the 100000×64 arrays `x`, `h1`, `h2`: the
  features and their two propagations) and its result (also 100000×64) are staged in blocks of 4096 rows;
  25·4096 = 102400 > 100000, so the last block of each overhangs its array by 2400 rows: it is a CLIPPED block. A fetch of a clipped block first overwrites the
  whole staging buffer with words nothing names and then lands the 1696 rows that lie inside the array on the
  buffer's leading rows; a write-back of a clipped block writes only those leading rows. The words past the
  array's end are nobody's: no array holds them, no transfer moves them, and no contents stated in advance can
  name them. So for such a window the body is handed the block FILLED OUT with arbitrary words `d`, and is
  asked to hand the buffer back only up to its rows inside the array (the window is "loose").

  The weight matrix (192×64) and the bias row (1×64) are whole arrays, fetched once, at the first point, into
  their one buffer, and found there at every later point because the body never writes them.

  Nothing is said of the result. The frame claim reads no word of it; and the rows of the result block that
  lie inside the array are, at the word level, a function of the WHOLE input buffers — the rows past the
  arrays' ends included, since the matrix product is not interpreted row by row — so their contents cannot be
  named from the arrays alone. The result's window is therefore FORGOTTEN: handed to the body at any
  contents, taken back at any contents, and the run is the relational one, whose post says of each input
  array that it holds what it held at the region's entry, and of every unscoped buffer no window stages
  likewise. The four argument arrays are two of the first kind (`x`, the weights) and two of the second (the
  edge index and the bias, which the kernel sees only through host-computed copies), and no host operation
  before the region writes any of them: that is the frame.
-/
import proofs.«155070_j50783693308333_2_alg».proof.Proof.KernelBody
import Idealize.ShloMosaic.Lib.Pipeline.Frame
import Idealize.ShloMosaic.Lib.Pipeline.FrameBody
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The result's window (5) is forgotten: nothing the claim states reads what the kernel leaves there. -/
def forgets : Fin 6 → Bool := fun w => w.val == 5

/-- The proof data of the one pipeline on core `c`: the arrays as the region finds them; after the body at point
    `t` each row-blocked input's buffer at its block — the rows inside the array — filled out with the zero word
    (a word of the proof's choice that nothing reads: the obligation of a loose window is stated up to it), the
    weights' and the bias's buffers at their (whole) blocks, the result's at contents the proof does not name;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => Scalar.ofBits .f32 0#32) (iblk m c 0 t)
    | ⟨1, _⟩ => win0_1.fill (grid0.coords t) (fun _ => Scalar.ofBits .f32 0#32) (iblk m c 1 t)
    | ⟨2, _⟩ => win0_2.fill (grid0.coords t) (fun _ => Scalar.ofBits .f32 0#32) (iblk m c 2 t)
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q _ := fullShare
  owed _ := 0

/-- The proof data's arrays are the region-entry contents (the definition projected, nothing unfolded). -/
theorem A_eq (c : Dev nD) (w : Fin cfg0.W) : (dats m 0 c).A w = V m c (Pipeline.arrRef spec0 w) := by
  dsimp only [dats]

/-- What the body leaves, window by window. -/
theorem after0 (c : Dev nD) (t : Fin cfg0.N) :
    (dats m 0 c).after 0 t = win0_0.fill (grid0.coords t) (fun _ => Scalar.ofBits .f32 0#32) (iblk m c 0 t) := by
  dsimp only [dats]
theorem after1 (c : Dev nD) (t : Fin cfg0.N) :
    (dats m 0 c).after 1 t = win0_1.fill (grid0.coords t) (fun _ => Scalar.ofBits .f32 0#32) (iblk m c 1 t) := by
  dsimp only [dats]
theorem after2 (c : Dev nD) (t : Fin cfg0.N) :
    (dats m 0 c).after 2 t = win0_2.fill (grid0.coords t) (fun _ => Scalar.ofBits .f32 0#32) (iblk m c 2 t) := by
  dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]

/-! ## What the body finds -/

/-- A row-blocked input is fetched at every point: its buffer, which held `d`, holds the block's rows inside the
    array on its leading rows and `d` on the rest (for the 24 blocks inside the array there is no rest). -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]
theorem before1 (c : Dev nD) (t : Fin cfg0.N) (d) :
    (dats m 0 c).before 1 t d = win0_1.fill (grid0.coords t) d (iblk m c 1 t) := by
  unfold Dat.before; rw [if_pos (fetch0_1 t)]
  unfold Dat.fetched Dat.blockOf iblk; rw [A_eq]
theorem before2 (c : Dev nD) (t : Fin cfg0.N) (d) :
    (dats m 0 c).before 2 t d = win0_2.fill (grid0.coords t) d (iblk m c 2 t) := by
  unfold Dat.before; rw [if_pos (fetch0_2 t)]
  unfold Dat.fetched Dat.blockOf iblk; rw [A_eq]
/-- The weights and the bias are fetched at the first point only and never written: their one buffer holds the
    whole array at every point. -/
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

/-! ## The body obligation, at a generic point -/

/-- What the body is called with at point `t`: the invariant, what the core owes, each input's current buffer at
    what it holds there, the result's at any contents; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ X, owns (c : Thread nD τ) (st0_5 t) fullShare X))

/-- and what it returns: a row-blocked input's buffer stated on the rows inside the array only (some filling
    `d` of them), the weights' and the bias's buffers whole, the result's at any contents. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        ((cfg0.win 0).fill (cfg0.grid.coords t) d ((cfg0.win 0).cut (cfg0.grid.coords t) ((dats m 0 c).after 0 t))))
    ∗ (∃ d, owns (c : Thread nD τ) (st0_1 t) fullShare
        ((cfg0.win 1).fill (cfg0.grid.coords t) d ((cfg0.win 1).cut (cfg0.grid.coords t) ((dats m 0 c).after 1 t))))
    ∗ (∃ d, owns (c : Thread nD τ) (st0_2 t) fullShare
        ((cfg0.win 2).fill (cfg0.grid.coords t) d ((cfg0.win 2).cut (cfg0.grid.coords t) ((dats m 0 c).after 2 t))))
    ∗ owns (c : Thread nD τ) (st0_3 t) fullShare ((dats m 0 c).after 3 t)
    ∗ owns (c : Thread nD τ) (st0_4 t) fullShare ((dats m 0 c).after 4 t)
    ∗ (∃ X, owns (c : Thread nD τ) (st0_5 t) fullShare X))

/-- What is asked of a row-blocked input's buffer after the body: the rows inside the array of what the proof
    data names — the block, whatever word filled it out — under any filling `d`. Cutting a filled block back to
    the rows inside the array gives the block. -/
theorem kept0 (c : Dev nD) (t : Fin cfg0.N) (d) :
    (cfg0.win 0).fill (cfg0.grid.coords t) d ((cfg0.win 0).cut (cfg0.grid.coords t) ((dats m 0 c).after 0 t))
      = win0_0.fill (grid0.coords t) d (iblk m c 0 t) := by
  rw [after0]; exact congrArg _ (win0_0.cut_fill _ _ _)
theorem kept1 (c : Dev nD) (t : Fin cfg0.N) (d) :
    (cfg0.win 1).fill (cfg0.grid.coords t) d ((cfg0.win 1).cut (cfg0.grid.coords t) ((dats m 0 c).after 1 t))
      = win0_1.fill (grid0.coords t) d (iblk m c 1 t) := by
  rw [after1]; exact congrArg _ (win0_1.cut_fill _ _ _)
theorem kept2 (c : Dev nD) (t : Fin cfg0.N) (d) :
    (cfg0.win 2).fill (cfg0.grid.coords t) d ((cfg0.win 2).cut (cfg0.grid.coords t) ((dats m 0 c).after 2 t))
      = win0_2.fill (grid0.coords t) d (iblk m c 2 t) := by
  rw [after2]; exact congrArg _ (win0_2.cut_fill _ _ _)

/-- The body at any point. The inputs' buffers hold their blocks, the row-blocked ones filled out with whatever
    the fetch left past the array's end; the body's triple applies to ANY contents of whole buffers, so it runs,
    leaves the inputs' buffers as they were and the result's at some contents; a row-blocked input's buffer, cut
    back to the rows inside the array, is the block again whatever filled it out, which is all that is asked. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    after3, after4]
  iintro ⟨HΦ, Ho, ⟨%d0, H0⟩, ⟨%d1, H1⟩, ⟨%d2, H2⟩, ⟨%d3, H3⟩, ⟨%d4, H4⟩, H5⟩
  rw [before0 m c t d0, before1 m c t d1, before2 m c t d2, before3 m c t d3, before4 m c t d4]
  iapply (sound_kernel (F := F) c Set.univ (grid0.coords t) _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Ho]; · iexact Ho
  isplitl [H0]; · iexists d0; rw [kept0 m c t d0]; iexact H0
  isplitl [H1]; · iexists d1; rw [kept1 m c t d1]; iexact H1
  isplitl [H2]; · iexists d2; rw [kept2 m c t d2]; iexact H2
  isplitl [H3]; · iexact H3
  isplitl [H4]; · iexact H4
  iexists _; iexact H5

/-- The library's body obligation, at every point: the windows taken one by one, no point idle, windows 0, 1, 2
    loose, window 5 forgotten. -/
theorem body_obligation (c : Dev nD) :
    BodyObligationLoose (dats (F := F) m 0 c) (defs₀ (F := F)) Variants.none () Set.univ forgets := fun t => by
  rw [bigSep_W0, bigSep_W0]
  exact sound_body m c t

/-! ## The run and the frame -/

-- the relational run's implicit arguments are found by unifying its conclusion with this statement, which takes
-- unfolding plain definitions in a metavariable's type
set_option backward.isDefEq.respectTransparency.types false in
/-- At the compiled mesh, for any values, from any memory with zero counters: every weakly fair execution of @main
    on the TensorCores terminates, and in every final state each INPUT array of the pipeline holds what it held
    when the region was entered, the result array holds some contents (its entry contents overwritten block by
    block by whatever the body left on the rows inside the array: nothing is stated of them), and every other
    unscoped buffer holds what it held when the region was entered. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget)
    (hshare := fun c => ((dats m 0 c).toRForget forgets).share_full fun _ => rfl)
    (howed := fun _ _ => rfl) (V := V m) (hmain := hmain m Variants.none) (hA := A_eq m) (hΦ := fun _ _ => rfl)

/-- The frame claim's post from the relational run's. An argument array a window stages as an INPUT (`x`:
    window 0; the weights: window 3) is never written by the pipeline, so the contents the relational post allows
    it are its entry contents; an argument array no window stages (the edge index, the bias: the kernel reads
    host-computed copies of them) is among the other unscoped buffers, at its entry contents too; and no host
    operation before the region writes an argument, so the entry contents are the launch contents. -/
theorem frame_of_run (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun ((rdat c).ArrAt_in 0 rfl _) _) ((h c).1 0)).trans ((hA c 0).trans (V_main_arg0 m c)),
      ((h c).2 main_arg1 (Pipeline.mem_restRefs_of main_arg1 (by decide) (by decide))).trans (V_main_arg1 m c),
      (Eq.mp (congrFun ((rdat c).ArrAt_in 3 rfl _) _) ((h c).1 3)).trans ((hA c 3).trans (V_main_arg2 m c)),
      ((h c).2 main_arg3 (Pipeline.mem_restRefs_of main_arg3 (by decide) (by decide))).trans (V_main_arg3 m c)⟩) h

/-- THE FRAME, at any float instance: every weakly fair execution of @main from a memory with zero counters
    terminates, and leaves each of the four argument arrays holding what it held at launch. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (fun c => (dats m 0 c).toRForget forgets) (A_eq m) (run_main m ρ)

end Cert.Kernel.Hand

end
-- ==== Proof.KernelIdealBody.lean ====
/-
  The kernel body's triple.

  One grid point of the row-blocked linear layer works on whole staging buffers: three 4096×64 blocks of rows
  (of `x`, `h1`, `h2`), the 192×64 weight matrix, the 1×64 bias row, and the 4096×64 result block. The body
  loads the five inputs whole, computes ONE value from them — the payload `k0_pay1 W x h1 h2 b` of its single
  store — and stores it over the whole result block (after a load of the result block that nothing reads).
  So, whatever the five input buffers hold and whatever the result buffer held, the body runs without a fault
  and ends with the inputs as they were and the result buffer at `k0_pay1 W x h1 h2 b`. Nothing here depends on
  the float instance: the statement is about memory, the arithmetic stays inside the payload's name.
-/
import proofs.«155070_j50783693308333_2_alg».proof.Proof.Gen.KernelIdeal.Frame
import proofs.«155070_j50783693308333_2_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's accesses: each buffer whole, at offsets zero -/

abbrev rRows : Rect S4096x64 := Rect.unit (s := S4096x64) ![0, 0] S4096x64.size inb_S4096x64_S4096x64_0_0
abbrev rWeights : Rect S192x64 := Rect.unit (s := S192x64) ![0, 0] S192x64.size inb_S192x64_S192x64_0_0
abbrev rBias : Rect S1x64 := Rect.unit (s := S1x64) ![0, 0] S1x64.size inb_S1x64_S1x64_0_0

theorem zero_offsets : (![0, 0] : Fin 2 → Nat) = fun _ => 0 := funext fun a => by fin_cases a <;> rfl

/-- The result block after the body, as the run leaves it: its one store, through the whole-block rectangle, of
    the payload of the five whole loads. -/
def stored (x0 x1 x2 : Vec F S4096x64 .f32) (x3 : Vec F S192x64 .f32) (x4 : Vec F S1x64 .f32) : Vec F S4096x64 .f32 :=
  View.canon [⟨rRows, k0_pay1 (View.ld x3 rWeights) (View.ld x0 rRows) (View.ld x1 rRows) (View.ld x2 rRows) (View.ld x4 rBias)⟩]

/-- A whole load reads the buffer and one whole store leaves its payload: the result block is the payload of
    the five buffers' contents. -/
theorem stored_eq (x0 x1 x2 : Vec F S4096x64 .f32) (x3 : Vec F S192x64 .f32) (x4 : Vec F S1x64 .f32) :
    stored x0 x1 x2 x3 x4 = k0_pay1 x3 x0 x1 x2 x4 := by
  unfold stored
  rw [View.canon_unit_zero zero_offsets]
  simp only [View.ld_unit_zero (S := S4096x64) zero_offsets, View.ld_unit_zero (S := S192x64) zero_offsets,
    View.ld_unit_zero (S := S1x64) zero_offsets]

/-! ## The triple -/

set_option maxHeartbeats 4000000 in
/-- On whole staging memrefs — the five inputs' at contents `x0 … x4`, the result's at anything — the body runs to
    the continuation holding the inputs' as they were and the result's at the payload of the inputs. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S4096x64 .f32) (harg3 : arg3.IsWhole) (arg4 : Memref sig .tc .vmem S192x64 .f32) (harg4 : arg4.IsWhole)
    (arg5 : Memref sig .tc .vmem S1x64 .f32) (harg5 : arg5.IsWhole) (arg6 : Memref sig .tc .vmem S4096x64 .f32) (harg6 : arg6.IsWhole)
    (x0 x1 x2 : Vec F S4096x64 .f32) (x3 : Vec F S192x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k0_pay1 x3 x0 x1 x2 x4)) -∗ K ⟨⟩))
      ⊢ wp frame (wpE (defs₀ (F := F)) Variants.none c none) E
          (cc0__linear_kernel i arg1 harg1 arg2 harg2 arg3 harg3 arg4 harg4 arg5 harg5 arg6 harg6) K := by
  rw [← stored_eq x0 x1 x2 x3 x4]
  simp only [cc0__linear_kernel_eq_skeleton]; unfold cc0__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (fun y => ⟨_, List.mem_singleton_self _, View.mem_set_unit_zero zero_offsets inb_S4096x64_S4096x64_0_0 y⟩)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.PropagatedLinear.lean ====
/-
  The function both programs compute, on the extended reals.

  For an N×64 feature matrix `x` and its two propagated copies `h1`, `h2` (N = 100000), the result is
  the N×192 matrix [x | h1 | h2] times the 192×64 weight matrix `W`, plus the bias `b` on every row:

      out(i, j) = Σ_{n < 192} [x | h1 | h2](i, n) · W(n, j) + b(j).

  It is written here the way a row-blocked evaluation groups it: the weight matrix cut into three bands
  of 64 rows, one 64-term sum per band (`band`), the three sums added left to right, then the bias.
  The one-sum form and the three-band form agree because a sum over 192 = 3·64 indices is the sum of
  the three sums over the groups of 64 — addition on the extended reals is commutative and associative,
  and nothing more is used: no distributivity, so no finiteness.
-/
import Idealize.ShloMosaic.PureOps.Ideal
import Idealize.ShloMosaic.Lib.ValueIdx

noncomputable section

namespace Cert.PropagatedLinear

open Idealize.ShloMosaic Idealize.ShloMosaic.ValueIdx

abbrev SNx64 : Shape := ⟨2, ![100000, 64]⟩
abbrev S192x64 : Shape := ⟨2, ![192, 64]⟩
abbrev S64 : Shape := ⟨1, ![64]⟩

/-- Row `k` of band `g` of the weight matrix is its row `64·g + k`. -/
def bandRow (g : Fin 3) (k : Fin 64) : Fin 192 :=
  ⟨64 * g.val + k.val, by have := g.isLt; have := k.isLt; omega⟩

/-- Row `i` of `A` against column `j` of band `g` of `W`: Σ_{k < 64} A(i, k) · W(64·g + k, j). -/
def band (g : Fin 3) (A : SNx64.Idx → EReal) (W : S192x64.Idx → EReal) (i : Fin 100000) (j : Fin 64) : EReal :=
  ∑ k : Fin 64, A (ix2 i k) * W (ix2 (bandRow g k) j)

/-- out(i, j) = ((x·W₀ + h1·W₁) + h2·W₂)(i, j) + b(j), with W₀, W₁, W₂ the three bands of `W`. -/
def linear3 (x h1 h2 : SNx64.Idx → EReal) (W : S192x64.Idx → EReal) (b : S64.Idx → EReal) : SNx64.Idx → EReal :=
  fun i => ((band 0 x W (i 0) (i 1) + band 1 h1 W (i 0) (i 1)) + band 2 h2 W (i 0) (i 1)) + b (ix1 (i 1))

end Cert.PropagatedLinear

end
-- ==== Proof.LinearPayload.lean ====
/-
  The body's one stored value, read at an entry, on the extended reals.

  At row `p` and column `q` of the 4096×64 result block the stored value is

      ((Σ_k x(p,k)·W(k,q) + Σ_k h1(p,k)·W(64+k,q)) + Σ_k h2(p,k)·W(128+k,q)) + b(0,q),   k < 64,

  where `x`, `h1`, `h2` are the three row blocks, `W` the 192×64 weight matrix and `b` the 1×64 bias row.
  Each of the three terms is a matrix product, accumulated into zeros, of a row block with one band of 64 rows of
  `W` (a slice at row offset 0, 64 or 128); the narrowing of the operands to a shorter float format is the identity
  on extended reals, a re-shaping of a block to its own shape is the identity, and the bias row is repeated down
  the 4096 rows. In particular the entry (p, q) reads row `p` of each row block and no other row.
-/
import proofs.«155070_j50783693308333_2_alg».proof.Proof.Gen.KernelIdeal.Skeleton
import proofs.«155070_j50783693308333_2_alg».proof.Proof.LibBlockReads
import proofs.«155070_j50783693308333_2_alg».proof.Proof.PropagatedLinear
import Idealize.ShloMosaic.Lib.ValueIdx
import Idealize.ShloMosaic.Lib.Pipeline.Value

noncomputable section

namespace Cert.KernelIdeal.Hand

open Cert.KernelIdeal Cert.KernelIdeal.Gen
open Idealize.ShloMosaic Idealize.ShloMosaic.ValueIdx
open Cert.PropagatedLinear (bandRow)

/-- A row block times the band of `W` that starts at row `o`: at (p, q) the sum over k < 64 of a(p,k)·W(o+k,q). -/
theorem band_product (a : Vec Ideal S4096x64 .f32) (w : Vec Ideal S192x64 .f32) (o : Nat) (g : Fin 3) (ho : o = 64 * g.val)
    (hs : S192x64.Slices ![o, 0] S64x64) (p : Fin 4096) (q : Fin 64) :
    matmul (F := Ideal) dot_S4096x64_S64x64_S4096x64_1_0_0_1_n_n none (truncf .bf16 a bitsLt_bf16_f32)
        (truncf .bf16 (extractStridedSlice S64x64 ![o, 0] w hs) bitsLt_bf16_f32) (constant (F := Ideal) S4096x64 .f32 0x00000000#32) (ix2 p q)
      = ∑ k : Fin 64, a (ix2 p k) * w (ix2 (bandRow g k) q) := by
  rw [Cert.Lib.BlockReads.matmul_zero_rows_apply dot_S4096x64_S64x64_S4096x64_1_0_0_1_n_n rfl rfl rfl rfl rfl rfl]
  refine Finset.sum_congr rfl fun k _ => ?_
  rw [truncf_apply, truncf_apply]
  congr 1
  exact extractStridedSlice_apply ![o, 0] w hs (ix2 k q) (ix2 (bandRow g k) q) (fun ax => by
    match ax with
    | ⟨0, _⟩ => show 64 * g.val + k.val = o + k.val; omega
    | ⟨1, _⟩ => show q.val = 0 + q.val; omega)

/-- The stored value at (p, q): the three band products of row `p`, added left to right, plus the bias entry. -/
theorem payload_apply (w : Vec Ideal S192x64 .f32) (a0 a1 a2 : Vec Ideal S4096x64 .f32) (b : Vec Ideal S1x64 .f32)
    (p : Fin 4096) (q : Fin 64) :
    k0_pay1 (F := Ideal) w a0 a1 a2 b (ix2 p q)
      = ((∑ k : Fin 64, a0 (ix2 p k) * w (ix2 (bandRow 0 k) q) + ∑ k : Fin 64, a1 (ix2 p k) * w (ix2 (bandRow 1 k) q))
          + ∑ k : Fin 64, a2 (ix2 p k) * w (ix2 (bandRow 2 k) q)) + b (ix2 0 q) := by
  unfold k0_pay1
  simp only [addf_apply, shapeCast_self]
  rw [band_product a0 w 0 0 rfl, band_product a1 w 64 1 rfl, band_product a2 w 128 2 rfl,
    Cert.Lib.BlockReads.broadcast_row_apply]

/-- The entry (p, q) of the stored value reads row `p` of each row block and no other: blocks that agree on row `p`
    give the same entry. -/
theorem payload_row_local (w : Vec Ideal S192x64 .f32) (a0 a0' a1 a1' a2 a2' : Vec Ideal S4096x64 .f32) (b : Vec Ideal S1x64 .f32)
    (p : Fin 4096) (q : Fin 64) (h0 : ∀ k : Fin 64, a0 (ix2 p k) = a0' (ix2 p k)) (h1 : ∀ k : Fin 64, a1 (ix2 p k) = a1' (ix2 p k))
    (h2 : ∀ k : Fin 64, a2 (ix2 p k) = a2' (ix2 p k)) :
    k0_pay1 (F := Ideal) w a0 a1 a2 b (ix2 p q) = k0_pay1 (F := Ideal) w a0' a1' a2' b (ix2 p q) := by
  rw [payload_apply, payload_apply]
  simp only [h0, h1, h2]

end Cert.KernelIdeal.Hand

end
-- ==== Proof.KernelIdealRun.lean ====
/-
  The row-blocked linear layer's pipeline at the ideal instance: proof data, body obligation, run.

  The grid has 25 points; point `t` works on rows 4096·t … 4096·t + 4095 of the three 100000×64 arrays and of the
  result. 25·4096 = 102400 exceeds 100000, so the last block overhangs the arrays by 2400 rows: its fetches
  land only the 1696 rows inside the array, on top of a staging buffer whose other rows hold words nobody
  names, and its write-back writes only those 1696 rows. What the proof data names for such a buffer is therefore
  the block filled out with a word of the proof's choice (zero), and what the body obligation has to show is
  only the part the transfers move.

  The body computes the whole 4096×64 block from whole buffers, unnamed rows included. That is harmless because
  an entry of the stored value reads ONE row of each row block (`payload_row_local`): the rows of the stored
  block inside the array are the same whatever the rows past the array's end held (`stored_rows_inside`).
-/
import proofs.«155070_j50783693308333_2_alg».proof.Proof.KernelIdealBody
import proofs.«155070_j50783693308333_2_alg».proof.Proof.LinearPayload
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The part of a block the transfers move -/

/-- The four clipped windows cut their blocks alike (one index map, one block shape, arrays of one shape), -/
theorem moved_part_0 : ∀ (t : Fin grid0.N) (a : Fin 2), win0_0.xsize (grid0.coords t) a = win0_5.xsize (grid0.coords t) a := by decide +kernel
theorem moved_part_1 : ∀ (t : Fin grid0.N) (a : Fin 2), win0_1.xsize (grid0.coords t) a = win0_5.xsize (grid0.coords t) a := by decide +kernel
theorem moved_part_2 : ∀ (t : Fin grid0.N) (a : Fin 2), win0_2.xsize (grid0.coords t) a = win0_5.xsize (grid0.coords t) a := by decide +kernel
/-- and never along the 64 columns: a cut block is some leading rows, whole. -/
theorem moved_cols : ∀ t : Fin grid0.N, win0_5.xsize (grid0.coords t) 1 = 64 := by decide +kernel

/-- Two fillings of one moved part agree wherever the transfer moves. -/
theorem fill_agree {G : Pipeline.Grid} (w : Pipeline.Window sig G) {α : Type} (i : G.Coords) (d d' : w.block.Idx → α)
    (g : (w.xblock i).Idx → α) (j : w.block.Idx) (hj : w.moved i j = true) : w.fill i d g j = w.fill i d' g j := by
  unfold Pipeline.Window.fill; rw [dif_pos hj, dif_pos hj]

/-- The rows of the stored block that the write-back moves do not depend on what the row blocks' buffers hold
    outside the part their fetches move. -/
theorem stored_rows_inside (t : Fin cfg0.N) (w : Vec Ideal S192x64 .f32) (b : Vec Ideal S1x64 .f32)
    (g0 : (win0_0.xblock (grid0.coords t)).Idx → Elt Ideal .f32) (g1 : (win0_1.xblock (grid0.coords t)).Idx → Elt Ideal .f32)
    (g2 : (win0_2.xblock (grid0.coords t)).Idx → Elt Ideal .f32) (d0 d0' d1 d1' d2 d2' : S4096x64.Idx → Elt Ideal .f32) :
    win0_5.cut (grid0.coords t) (k0_pay1 (F := Ideal) w (win0_0.fill (grid0.coords t) d0 g0) (win0_1.fill (grid0.coords t) d1 g1)
        (win0_2.fill (grid0.coords t) d2 g2) b)
      = win0_5.cut (grid0.coords t) (k0_pay1 (F := Ideal) w (win0_0.fill (grid0.coords t) d0' g0) (win0_1.fill (grid0.coords t) d1' g1)
        (win0_2.fill (grid0.coords t) d2' g2) b) := by
  funext j
  have hp : (j 0).val < win0_5.xsize (grid0.coords t) 0 := (j 0).isLt
  have hq : (j 1).val < 64 := by
    have h1 : (j 1).val < win0_5.xsize (grid0.coords t) 1 := (j 1).isLt
    have h64 := moved_cols t
    omega
  have hp4 : (j 0).val < 4096 := Nat.lt_of_lt_of_le hp (win0_5.xsize_le (grid0.coords t) 0)
  have e : win0_5.xinj (grid0.coords t) j = ix2 (⟨(j 0).val, hp4⟩ : Fin 4096) (⟨(j 1).val, hq⟩ : Fin 64) :=
    funext fun a => Fin.ext (by match a with | ⟨0, _⟩ => rfl | ⟨1, _⟩ => rfl)
  show k0_pay1 (F := Ideal) w _ _ _ b (win0_5.xinj (grid0.coords t) j) = k0_pay1 (F := Ideal) w _ _ _ b (win0_5.xinj (grid0.coords t) j)
  rw [e]
  refine payload_row_local w _ _ _ _ _ _ b _ _ (fun k => ?_) (fun k => ?_) (fun k => ?_)
  · refine fill_agree win0_0 _ _ _ _ _ ((win0_0.moved_iff _ _).mpr fun a => ?_)
    match a with
    | ⟨0, _⟩ => show (j 0).val < win0_0.xsize (grid0.coords t) 0; rw [moved_part_0 t 0]; exact hp
    | ⟨1, _⟩ => show k.val < win0_0.xsize (grid0.coords t) 1; rw [moved_part_0 t 1, moved_cols t]; exact k.isLt
  · refine fill_agree win0_1 _ _ _ _ _ ((win0_1.moved_iff _ _).mpr fun a => ?_)
    match a with
    | ⟨0, _⟩ => show (j 0).val < win0_1.xsize (grid0.coords t) 0; rw [moved_part_1 t 0]; exact hp
    | ⟨1, _⟩ => show k.val < win0_1.xsize (grid0.coords t) 1; rw [moved_part_1 t 1, moved_cols t]; exact k.isLt
  · refine fill_agree win0_2 _ _ _ _ _ ((win0_2.moved_iff _ _).mpr fun a => ?_)
    match a with
    | ⟨0, _⟩ => show (j 0).val < win0_2.xsize (grid0.coords t) 0; rw [moved_part_2 t 0]; exact hp
    | ⟨1, _⟩ => show k.val < win0_2.xsize (grid0.coords t) 1; rw [moved_part_2 t 1, moved_cols t]; exact k.isLt

/-! ## The proof data -/

/-- The zero word: what the proof data puts in the rows of a cut block that no transfer moves. -/
abbrev pad : S4096x64.Idx → Elt Ideal .f32 := fun _ => Scalar.ofBits (F := Ideal) .f32 0#32

/-- The three row blocks at point `t`, each filled out to 4096 rows, -/
def xRows (c : Dev nD) (t : Fin cfg0.N) : S4096x64.Idx → Elt Ideal .f32 := win0_0.fill (grid0.coords t) pad (iblk m c 0 t)
def h1Rows (c : Dev nD) (t : Fin cfg0.N) : S4096x64.Idx → Elt Ideal .f32 := win0_1.fill (grid0.coords t) pad (iblk m c 1 t)
def h2Rows (c : Dev nD) (t : Fin cfg0.N) : S4096x64.Idx → Elt Ideal .f32 := win0_2.fill (grid0.coords t) pad (iblk m c 2 t)
/-- and the block the body stores from them, the weights and the bias row. -/
def outRows (c : Dev nD) (t : Fin cfg0.N) : S4096x64.Idx → Elt Ideal .f32 :=
  k0_pay1 (F := Ideal) (iblk m c 3 t) (xRows m c t) (h1Rows m c t) (h2Rows m c t) (iblk m c 4 t)

/-- The proof data of the one pipeline on core `c`: the arrays as the region finds them; after the body at point `t`
    the row blocks' buffers at their filled-out blocks, the weights' and the bias row's at their (whole) blocks, the
    result's at the stored block; the class's invariant; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => xRows m c t
    | ⟨1, _⟩ => h1Rows m c t
    | ⟨2, _⟩ => h2Rows m c t
    | ⟨3, _⟩ => iblk m c 3 t
    | ⟨4, _⟩ => iblk m c 4 t
    | ⟨5, _⟩ => outRows m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xRows m c t := by dsimp only [dats]
theorem after_1 (c : Dev nD) (t : Fin cfg0.N) : (dats m 0 c).after 1 t = h1Rows m c t := by dsimp only [dats]
theorem after_2 (c : Dev nD) (t : Fin cfg0.N) : (dats m 0 c).after 2 t = h2Rows m c t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outRows m c t := by dsimp only [dats]

/-! ## What the body finds -/

/-- A row block's buffer was fetched at this very point: the block on the rows the fetch moves, `d` elsewhere. -/
theorem before_0 (c : Dev nD) (t : Fin cfg0.N) (d) :
    (dats m 0 c).before 0 t d = win0_0.fill (grid0.coords t) d (iblk m c 0 t) := by
  unfold Dat.before; rw [if_pos (fetch0_0 t)]; unfold Dat.fetched Dat.blockOf iblk; rw [A_eq]
theorem before_1 (c : Dev nD) (t : Fin cfg0.N) (d) :
    (dats m 0 c).before 1 t d = win0_1.fill (grid0.coords t) d (iblk m c 1 t) := by
  unfold Dat.before; rw [if_pos (fetch0_1 t)]; unfold Dat.fetched Dat.blockOf iblk; rw [A_eq]
theorem before_2 (c : Dev nD) (t : Fin cfg0.N) (d) :
    (dats m 0 c).before 2 t d = win0_2.fill (grid0.coords t) d (iblk m c 2 t) := by
  unfold Dat.before; rw [if_pos (fetch0_2 t)]; unfold Dat.fetched Dat.blockOf iblk; rw [A_eq]
/-- The weights and the bias row were fetched once, at the first point, and the body leaves them in place. -/
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns: a cut window's buffer is stated on the part its transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t))))
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare (win0_5.fill (grid0.coords t) d (win0_5.cut (grid0.coords t) ((dats m 0 c).after 5 t)))))

/-- The body at any point: the row blocks' buffers hold their blocks filled out with whatever the fetch left,
    the weights' and the bias row's their blocks; the triple applies; on the rows the write-back moves, the
    stored block is the one the proof data names (`stored_rows_inside`). -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel (F := Ideal) c Set.univ (grid0.coords t) _ _ _ _ _ _ _ _ _ _ _ _
    (win0_0.fill (grid0.coords t) d0 (iblk m c 0 t)) (win0_1.fill (grid0.coords t) d1 (iblk m c 1 t))
    (win0_2.fill (grid0.coords t) d2 (iblk m c 2 t)) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]
  · iexists d0
    rw [show win0_0.cut (grid0.coords t) (xRows m c t) = iblk m c 0 t from win0_0.cut_fill _ _ _]; iexact H0
  isplitl [H1]
  · iexists d1
    rw [show win0_1.cut (grid0.coords t) (h1Rows m c t) = iblk m c 1 t from win0_1.cut_fill _ _ _]; iexact H1
  isplitl [H2]
  · iexists d2
    rw [show win0_2.cut (grid0.coords t) (h2Rows m c t) = iblk m c 2 t from win0_2.cut_fill _ _ _]; iexact H2
  isplitl [H3]; · iexact H3
  isplitl [H4]; · iexact H4
  iexists (k0_pay1 (F := Ideal) (iblk m c 3 t) (win0_0.fill (grid0.coords t) d0 (iblk m c 0 t))
    (win0_1.fill (grid0.coords t) d1 (iblk m c 1 t)) (win0_2.fill (grid0.coords t) d2 (iblk m c 2 t)) (iblk m c 4 t))
  rw [show win0_5.cut (grid0.coords t) (outRows m c t)
      = win0_5.cut (grid0.coords t) (k0_pay1 (F := Ideal) (iblk m c 3 t) (win0_0.fill (grid0.coords t) d0 (iblk m c 0 t))
          (win0_1.fill (grid0.coords t) d1 (iblk m c 1 t)) (win0_2.fill (grid0.coords t) d2 (iblk m c 2 t)) (iblk m c 4 t))
      from stored_rows_inside t _ _ _ _ _ _ _ _ _ _ _, win0_5.fill_cut]
  iexact H5

/-- The library's body obligation, at every point. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of the program terminates, nothing faulting, with every array of the pipeline at
    what the library computes from the proof data — the result array at its entry contents overwritten, point
    by point, by the moved rows of the stored blocks — and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The argument arrays end as they were launched. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.KernelIdealBlocks.lean ====
/-
  Where the blocks of the row-blocked linear layer sit, decided over the 25 grid points.

  Point `t` takes rows 4096·t … of the three row arrays and of the result: block index (t, 0). The weight matrix
  and the bias row are one block each: block index (0, 0). The last block (t = 24) starts at row 98304 and
  overhangs the 100000-row arrays: it is cut to its first 1696 rows; every other block is whole.
-/
import proofs.«155070_j50783693308333_2_alg».proof.Proof.KernelIdealRun

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

theorem start_0 : ∀ t : Fin cfg0.N, win0_0.index t (0 : Fin 2) = t.val ∧ win0_0.index t (1 : Fin 2) = 0 :=
  (by decide +kernel : ∀ t : Fin grid0.N, _)
theorem start_1 : ∀ t : Fin cfg0.N, win0_1.index t (0 : Fin 2) = t.val ∧ win0_1.index t (1 : Fin 2) = 0 :=
  (by decide +kernel : ∀ t : Fin grid0.N, _)
theorem start_2 : ∀ t : Fin cfg0.N, win0_2.index t (0 : Fin 2) = t.val ∧ win0_2.index t (1 : Fin 2) = 0 :=
  (by decide +kernel : ∀ t : Fin grid0.N, _)
theorem start_3 : ∀ t : Fin cfg0.N, win0_3.index t (0 : Fin 2) = 0 ∧ win0_3.index t (1 : Fin 2) = 0 :=
  (by decide +kernel : ∀ t : Fin grid0.N, _)
theorem start_4 : ∀ t : Fin cfg0.N, win0_4.index t (0 : Fin 2) = 0 ∧ win0_4.index t (1 : Fin 2) = 0 :=
  (by decide +kernel : ∀ t : Fin grid0.N, _)
theorem start_5 : ∀ t : Fin cfg0.N, win0_5.index t (0 : Fin 2) = t.val ∧ win0_5.index t (1 : Fin 2) = 0 :=
  (by decide +kernel : ∀ t : Fin grid0.N, _)
/-- The rows of the result's block inside the array: 4096 before the last point, 1696 at it. -/
theorem rows_inside : ∀ t : Fin cfg0.N, (t.val < 24 ∧ win0_5.xsize (grid0.coords t) 0 = 4096)
    ∨ (t.val = 24 ∧ win0_5.xsize (grid0.coords t) 0 = 1696) :=
  (by decide +kernel : ∀ t : Fin grid0.N, _)

/-- All of it at one point. -/
theorem block_positions (t : Fin cfg0.N) :
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ ((t.val < 24 ∧ win0_5.xsize (grid0.coords t) 0 = 4096) ∨ (t.val = 24 ∧ win0_5.xsize (grid0.coords t) 0 = 1696)) :=
  ⟨(start_0 t).1, (start_0 t).2, (start_1 t).1, (start_1 t).2, (start_2 t).1, (start_2 t).2, (start_3 t).1, (start_3 t).2,
    (start_4 t).1, (start_4 t).2, (start_5 t).1, (start_5 t).2, rows_inside t⟩

/-- Entry (p, k) of a row window's cut block, for a row `p` the transfers move. -/
def rowEntry0 (t : Fin cfg0.N) (p : Nat) (hp : p < win0_5.xsize (grid0.coords t) 0) (k : Fin 64) : (win0_0.xblock (grid0.coords t)).Idx :=
  fun (a : Fin 2) => match a with
  | ⟨0, _⟩ => ⟨p, by show p < win0_0.xsize (grid0.coords t) 0; rw [moved_part_0 t 0]; exact hp⟩
  | ⟨1, _⟩ => ⟨k.val, by show k.val < win0_0.xsize (grid0.coords t) 1; rw [moved_part_0 t 1, moved_cols t]; exact k.isLt⟩
def rowEntry1 (t : Fin cfg0.N) (p : Nat) (hp : p < win0_5.xsize (grid0.coords t) 0) (k : Fin 64) : (win0_1.xblock (grid0.coords t)).Idx :=
  fun (a : Fin 2) => match a with
  | ⟨0, _⟩ => ⟨p, by show p < win0_1.xsize (grid0.coords t) 0; rw [moved_part_1 t 0]; exact hp⟩
  | ⟨1, _⟩ => ⟨k.val, by show k.val < win0_1.xsize (grid0.coords t) 1; rw [moved_part_1 t 1, moved_cols t]; exact k.isLt⟩
def rowEntry2 (t : Fin cfg0.N) (p : Nat) (hp : p < win0_5.xsize (grid0.coords t) 0) (k : Fin 64) : (win0_2.xblock (grid0.coords t)).Idx :=
  fun (a : Fin 2) => match a with
  | ⟨0, _⟩ => ⟨p, by show p < win0_2.xsize (grid0.coords t) 0; rw [moved_part_2 t 0]; exact hp⟩
  | ⟨1, _⟩ => ⟨k.val, by show k.val < win0_2.xsize (grid0.coords t) 1; rw [moved_part_2 t 1, moved_cols t]; exact k.isLt⟩

end Cert.KernelIdeal.Hand

end
-- ==== Proof.KernelIdealValue.lean ====
/-
  From blocks to the array: what the result array holds after the run, at the ideal instance.

  Point `t` of the grid writes back rows 4096·t … of the stored block — all 4096 of them for t < 24, the first
  1696 for t = 24, where the block overhangs the 100000-row array. Each written row `p` is row 4096·t + p of ONE
  whole-array function, `linear3` of the arrays as the region finds them (`written_rows`): the entry reads row
  `p` of the three row blocks, which are rows 4096·t + p of the three arrays, all of the weight matrix and the
  bias row. Row `r` of the array is written by point r / 4096, so the blocks cover the array and the result
  array ends holding that function.
-/
import proofs.«155070_j50783693308333_2_alg».proof.Proof.KernelIdealBlocks
import proofs.«155070_j50783693308333_2_alg».proof.Proof.PropagatedLinear
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.PropagatedLinear (bandRow band linear3)

variable (m : (ℓ : Loc nD τ sig) → Buf (Elt Ideal) ℓ) (ρ : Dev nD → PrngReg)

/-! ## The blocks' entries are the arrays' entries

Stated for ANY contents of the five arrays (variables): a block is a read of its array through the block's
rectangle, and the rectangle of point `t` starts at row 4096·t. -/

section AnyArrays

variable (c : Dev nD)

/-- Row `p` of a block of the first row array, filled out with anything, for a row the transfers move, is row
    4096·t + p of the array. -/
theorem rows0_apply (A : Buf (Elt Ideal) ((c : Thread nD τ).loc main_arg0)) (t : Fin cfg0.N) (d : S4096x64.Idx → Elt Ideal .f32)
    (p : Fin 4096) (hp : p.val < win0_5.xsize (grid0.coords t) 0) (k : Fin 64) (r : Fin 100000) (hr : r.val = 4096 * t.val + p.val) :
    win0_0.fill (grid0.coords t) d (((cfg0.win 0).blk t).view.read (Elt Ideal) A) (ix2 p k) = A (ix2 r k) := by
  have e : ix2 p k = win0_0.xinj (grid0.coords t) (rowEntry0 t p.val hp k) :=
    funext fun a => Fin.ext (by match a with | ⟨0, _⟩ => rfl | ⟨1, _⟩ => rfl)
  rw [e, win0_0.fill_xinj, View.read_apply]
  refine congrArg A ?_
  obtain ⟨e0, e1⟩ := start_0 t
  funext a; apply Fin.ext
  match a with
  | ⟨0, _⟩ => show win0_0.index t (0 : Fin 2) * 4096 + 1 * p.val = r.val; omega
  | ⟨1, _⟩ => show win0_0.index t (1 : Fin 2) * 64 + 1 * k.val = k.val; omega
theorem rows1_apply (A : Buf (Elt Ideal) ((c : Thread nD τ).loc main_v44)) (t : Fin cfg0.N) (d : S4096x64.Idx → Elt Ideal .f32)
    (p : Fin 4096) (hp : p.val < win0_5.xsize (grid0.coords t) 0) (k : Fin 64) (r : Fin 100000) (hr : r.val = 4096 * t.val + p.val) :
    win0_1.fill (grid0.coords t) d (((cfg0.win 1).blk t).view.read (Elt Ideal) A) (ix2 p k) = A (ix2 r k) := by
  have e : ix2 p k = win0_1.xinj (grid0.coords t) (rowEntry1 t p.val hp k) :=
    funext fun a => Fin.ext (by match a with | ⟨0, _⟩ => rfl | ⟨1, _⟩ => rfl)
  rw [e, win0_1.fill_xinj, View.read_apply]
  refine congrArg A ?_
  obtain ⟨e0, e1⟩ := start_1 t
  funext a; apply Fin.ext
  match a with
  | ⟨0, _⟩ => show win0_1.index t (0 : Fin 2) * 4096 + 1 * p.val = r.val; omega
  | ⟨1, _⟩ => show win0_1.index t (1 : Fin 2) * 64 + 1 * k.val = k.val; omega
theorem rows2_apply (A : Buf (Elt Ideal) ((c : Thread nD τ).loc main_v57)) (t : Fin cfg0.N) (d : S4096x64.Idx → Elt Ideal .f32)
    (p : Fin 4096) (hp : p.val < win0_5.xsize (grid0.coords t) 0) (k : Fin 64) (r : Fin 100000) (hr : r.val = 4096 * t.val + p.val) :
    win0_2.fill (grid0.coords t) d (((cfg0.win 2).blk t).view.read (Elt Ideal) A) (ix2 p k) = A (ix2 r k) := by
  have e : ix2 p k = win0_2.xinj (grid0.coords t) (rowEntry2 t p.val hp k) :=
    funext fun a => Fin.ext (by match a with | ⟨0, _⟩ => rfl | ⟨1, _⟩ => rfl)
  rw [e, win0_2.fill_xinj, View.read_apply]
  refine congrArg A ?_
  obtain ⟨e0, e1⟩ := start_2 t
  funext a; apply Fin.ext
  match a with
  | ⟨0, _⟩ => show win0_2.index t (0 : Fin 2) * 4096 + 1 * p.val = r.val; omega
  | ⟨1, _⟩ => show win0_2.index t (1 : Fin 2) * 64 + 1 * k.val = k.val; omega

/-- The weights' block is the weight matrix, -/
theorem weights_apply (A : Buf (Elt Ideal) ((c : Thread nD τ).loc main_arg2)) (t : Fin cfg0.N) (n : Fin 192) (q : Fin 64) :
    ((cfg0.win 3).blk t).view.read (Elt Ideal) A (ix2 n q) = A (ix2 n q) := by
  rw [View.read_apply]
  refine congrArg A ?_
  obtain ⟨e0, e1⟩ := start_3 t
  funext a; apply Fin.ext
  match a with
  | ⟨0, _⟩ => show win0_3.index t (0 : Fin 2) * 192 + 1 * n.val = n.val; omega
  | ⟨1, _⟩ => show win0_3.index t (1 : Fin 2) * 64 + 1 * q.val = q.val; omega
/-- and the bias row's block is the bias row. -/
theorem bias_apply (A : Buf (Elt Ideal) ((c : Thread nD τ).loc main_v58)) (t : Fin cfg0.N) (q : Fin 64) :
    ((cfg0.win 4).blk t).view.read (Elt Ideal) A (ix2 (0 : Fin 1) q) = A (ix2 (0 : Fin 1) q) := by
  rw [View.read_apply]
  refine congrArg A ?_
  obtain ⟨e0, e1⟩ := start_4 t
  funext a; apply Fin.ext
  match a with
  | ⟨0, _⟩ => show win0_4.index t (0 : Fin 2) * 1 + 1 * 0 = 0; omega
  | ⟨1, _⟩ => show win0_4.index t (1 : Fin 2) * 64 + 1 * q.val = q.val; omega

/-- `linear3` at an entry, written out. -/
theorem linear3_apply (x h1 h2 : Cert.PropagatedLinear.SNx64.Idx → EReal) (W : Cert.PropagatedLinear.S192x64.Idx → EReal)
    (b : Cert.PropagatedLinear.S64.Idx → EReal) (r : Fin 100000) (q : Fin 64) :
    linear3 x h1 h2 W b (ix2 r q)
      = ((∑ k : Fin 64, x (ix2 r k) * W (ix2 (bandRow 0 k) q) + ∑ k : Fin 64, h1 (ix2 r k) * W (ix2 (bandRow 1 k) q))
          + ∑ k : Fin 64, h2 (ix2 r k) * W (ix2 (bandRow 2 k) q)) + b (ix1 q) := rfl

/-- WHAT POINT `t` WRITES BACK, for any contents of the arrays: the rows of the stored block that the write-back
    moves are the rows 4096·t … of `linear3` of the five arrays. -/
theorem written_rows_any (A0 : Buf (Elt Ideal) ((c : Thread nD τ).loc main_arg0)) (A1 : Buf (Elt Ideal) ((c : Thread nD τ).loc main_v44))
    (A2 : Buf (Elt Ideal) ((c : Thread nD τ).loc main_v57)) (AW : Buf (Elt Ideal) ((c : Thread nD τ).loc main_arg2))
    (AB : Buf (Elt Ideal) ((c : Thread nD τ).loc main_v58)) (t : Fin cfg0.N) :
    (cfg0.win 5).cut (grid0.coords t)
        (k0_pay1 (F := Ideal) (((cfg0.win 3).blk t).view.read (Elt Ideal) AW)
          (win0_0.fill (grid0.coords t) pad (((cfg0.win 0).blk t).view.read (Elt Ideal) A0))
          (win0_1.fill (grid0.coords t) pad (((cfg0.win 1).blk t).view.read (Elt Ideal) A1))
          (win0_2.fill (grid0.coords t) pad (((cfg0.win 2).blk t).view.read (Elt Ideal) A2))
          (((cfg0.win 4).blk t).view.read (Elt Ideal) AB))
      = ((cfg0.win 5).blk t).view.read (Elt Ideal) (linear3 A0 A1 A2 AW (fun j => AB (ix2 (0 : Fin 1) (j 0)))) := by
  funext j
  have hp : (j 0).val < win0_5.xsize (grid0.coords t) 0 := (j 0).isLt
  have hq : (j 1).val < 64 := by
    have h1 : (j 1).val < win0_5.xsize (grid0.coords t) 1 := (j 1).isLt
    have h64 := moved_cols t
    omega
  have hp4 : (j 0).val < 4096 := Nat.lt_of_lt_of_le hp (win0_5.xsize_le (grid0.coords t) 0)
  obtain ⟨e0, e1⟩ := start_5 t
  have hx := rows_inside t
  have ht25 : t.val < 25 := t.isLt
  have hr : 4096 * t.val + (j 0).val < 100000 := by omega
  have e : win0_5.xinj (grid0.coords t) j = ix2 (⟨(j 0).val, hp4⟩ : Fin 4096) (⟨(j 1).val, hq⟩ : Fin 64) :=
    funext fun a => Fin.ext (by match a with | ⟨0, _⟩ => rfl | ⟨1, _⟩ => rfl)
  have ei : ((cfg0.win 5).blk t).view.emb j = ix2 (⟨4096 * t.val + (j 0).val, hr⟩ : Fin 100000) (⟨(j 1).val, hq⟩ : Fin 64) := by
    funext a; apply Fin.ext
    match a with
    | ⟨0, _⟩ => show win0_5.index t (0 : Fin 2) * 4096 + 1 * (j 0).val = 4096 * t.val + (j 0).val; omega
    | ⟨1, _⟩ => show win0_5.index t (1 : Fin 2) * 64 + 1 * (j 1).val = (j 1).val; omega
  have hR : ((cfg0.win 5).blk t).view.read (Elt Ideal) (linear3 A0 A1 A2 AW (fun j => AB (ix2 (0 : Fin 1) (j 0)))) j
      = linear3 A0 A1 A2 AW (fun j => AB (ix2 (0 : Fin 1) (j 0))) (ix2 (⟨4096 * t.val + (j 0).val, hr⟩ : Fin 100000) (⟨(j 1).val, hq⟩ : Fin 64)) := by
    rw [View.read_apply]
    exact congrArg (linear3 A0 A1 A2 AW (fun j => AB (ix2 (0 : Fin 1) (j 0)))) ei
  rw [hR, linear3_apply]
  show k0_pay1 (F := Ideal) _ _ _ _ _ (win0_5.xinj (grid0.coords t) j) = _
  rw [e, payload_apply]
  simp only [fun k => rows0_apply c A0 t pad ⟨(j 0).val, hp4⟩ hp k ⟨4096 * t.val + (j 0).val, hr⟩ rfl,
    fun k => rows1_apply c A1 t pad ⟨(j 0).val, hp4⟩ hp k ⟨4096 * t.val + (j 0).val, hr⟩ rfl,
    fun k => rows2_apply c A2 t pad ⟨(j 0).val, hp4⟩ hp k ⟨4096 * t.val + (j 0).val, hr⟩ rfl, weights_apply c AW t, bias_apply c AB t]

end AnyArrays

/-! ## The whole-array function -/

/-- The bias as the region finds it: the 1×64 row's entries as a vector of 64. -/
def biasVec (c : Dev nD) : Cert.PropagatedLinear.S64.Idx → EReal := fun j => V m c (Pipeline.arrRef spec0 4) (ix2 (0 : Fin 1) (j 0))

/-- What the result array ends holding: `linear3` of the arrays as the region finds them. -/
def wholeResult (c : Dev nD) : S100000x64.Idx → EReal :=
  linear3 (V m c (Pipeline.arrRef spec0 0)) (V m c (Pipeline.arrRef spec0 1)) (V m c (Pipeline.arrRef spec0 2))
    (V m c (Pipeline.arrRef spec0 3)) (biasVec m c)

/-- WHAT POINT `t` WRITES BACK is block `t` of that function, cut to the rows inside the array. -/
theorem written_rows (c : Dev nD) (t : Fin cfg0.N) :
    (dats m 0 c).flushed 5 t = ((cfg0.win 5).blk t).view.read (Elt Ideal) (wholeResult m c) := by
  show (cfg0.win 5).cut (grid0.coords t) ((dats m 0 c).after 5 t) = _
  rw [after_5]
  unfold outRows xRows h1Rows h2Rows iblk wholeResult biasVec
  exact written_rows_any c (V m c (Pipeline.arrRef spec0 0)) (V m c (Pipeline.arrRef spec0 1)) (V m c (Pipeline.arrRef spec0 2))
    (V m c (Pipeline.arrRef spec0 3)) (V m c (Pipeline.arrRef spec0 4)) t

/-! ## The blocks cover the array -/

/-- An index of the result array is in point `t`'s block iff, on each axis, its coordinate lies among the block's
    coordinates inside the array. -/
theorem mem_block (t : Fin cfg0.N) (i : S100000x64.Idx) :
    i ∈ ((cfg0.win 5).blk t).view.set ↔ ∀ a : Fin 2, win0_5.index t a * S4096x64.size a ≤ (i a).val
      ∧ (i a).val < win0_5.index t a * S4096x64.size a + win0_5.xsize (grid0.coords t) a := by
  show i ∈ ((View.whole main_v59).slice (win0_5.rect t)).set ↔ _
  rw [View.set_slice_whole, Rect.mem_set_unit]
  exact Iff.rfl

/-- Row `r` of the array is written back by point r / 4096: rows 4096·t … 4096·t + 4095 for t < 24, and rows
    98304 … 99999 for t = 24. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hlt : (i 0).val / 4096 < cfg0.N := by show (i 0).val / 4096 < 25; omega
  refine ⟨⟨(i 0).val / 4096, hlt⟩, flush0_5 _, ?_⟩
  rw [mem_block]
  obtain ⟨-, -, -, -, -, -, -, -, -, -, e0, e1, hx⟩ := block_positions ⟨(i 0).val / 4096, hlt⟩
  have hc := moved_cols ⟨(i 0).val / 4096, hlt⟩
  have htv : (⟨(i 0).val / 4096, hlt⟩ : Fin cfg0.N).val = (i 0).val / 4096 := rfl
  rw [htv] at e0 hx
  intro a
  match a with
  | ⟨0, _⟩ =>
    show win0_5.index ⟨(i 0).val / 4096, hlt⟩ (0 : Fin 2) * 4096 ≤ (i 0).val
      ∧ (i 0).val < win0_5.index ⟨(i 0).val / 4096, hlt⟩ (0 : Fin 2) * 4096 + win0_5.xsize (grid0.coords ⟨(i 0).val / 4096, hlt⟩) 0
    rcases hx with ⟨h, hx⟩ | ⟨h, hx⟩ <;> omega
  | ⟨1, _⟩ =>
    show win0_5.index ⟨(i 0).val / 4096, hlt⟩ (1 : Fin 2) * 64 ≤ (i 1).val
      ∧ (i 1).val < win0_5.index ⟨(i 0).val / 4096, hlt⟩ (1 : Fin 2) * 64 + win0_5.xsize (grid0.coords ⟨(i 0).val / 4096, hlt⟩) 1
    omega

/-- THE RESULT ARRAY after the run is the whole-array function. -/
theorem result_array (c : Dev nD) : (dats m 0 c).arrAt 5 cfg0.N = wholeResult m c :=
  (dats m 0 c).arrAt_eq_of_cover 5 (wholeResult m c) (fun t _ => written_rows m c t) covered

/-! ## The run, read -/

/-- Every weakly fair execution of the program terminates, nothing faulting, with the result array at the
    whole-array function of the arrays as the region finds them, and the argument arrays as they were launched. -/
theorem run_value : θ_run defs (onTc (τ := τ) (main (F := Ideal))) ⟨m, fun _ => 0, ρ⟩ (fun r => ∀ c : Dev nD,
      r.2.mem ((c.tc : Thread nD τ).loc main_v59) = wholeResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 5).trans (result_array m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩)
    (run_main m ρ)

end Cert.KernelIdeal.Hand

end
-- ==== Proof.ReferenceStages.lean ====
/-
  The reference program as a chain of stages.

  The reference is a straight-line program: each of its operations writes one array that is a function of
  the arrays written before it. A stage `val_<name>` is the array an operation writes, expressed as a
  function of the program's arguments it depends on (x0: the N×64 feature matrix, x1: the 2×E array of edge
  endpoints, x2: the 192×64 weight matrix, x3: the 64-entry bias), obtained by substituting, operation after
  operation, the stages of its operands into the operation's own function. The last stage,
  `val_main_v62`, is the program's result: the matrix [x | h1 | h2]·W with the bias added to every row,
  where h1 = `val_main_v44` and h2 = `val_main_v57` are the once and twice propagated features.

  For the last four operations (the contraction, the two broadcasts of the bias and the final addition) the
  stage is also read at an index: the contraction's element (i, j) is the sum over k < 192 of the left
  operand at (i, k) times the right operand at (k, j) (on the extended reals), a broadcast reads its operand
  at the index with the broadcast axes dropped, and the addition adds element by element.
-/
import proofs.«155070_j50783693308333_2_alg».proof.Proof.Gen.ReferenceIdeal
import Idealize.ShloMosaic.Lib.Pipeline.Value
import Idealize.ShloMosaic.Lib.ValueIdx
import Idealize.ShloMosaic.PureOps.Ideal.Laws

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.slice %arg1 [0:1, 0:1600000] : (tensor<2x1600000xi32>) -> tensor<1x1600000xi32>
def val_main_v0 (x1 : (⟨S2x1600000, .i32⟩ : BufTy).Contents (Elt F)) : (⟨S1x1600000, .i32⟩ : BufTy).Contents (Elt F) :=
  extractStridedSlice S1x1600000 ![0, 0] (x1) slices_S2x1600000_S1x1600000_0_0

-- %1 = stablehlo.reshape %0 : (tensor<1x1600000xi32>) -> tensor<1600000xi32>
def val_main_v1 (x1 : (⟨S2x1600000, .i32⟩ : BufTy).Contents (Elt F)) : (⟨S1600000, .i32⟩ : BufTy).Contents (Elt F) :=
  shapeCast _ (val_main_v0 (F := F) x1) shapeCasts_S1x1600000_S1600000

-- %2 = stablehlo.slice %arg1 [1:2, 0:1600000] : (tensor<2x1600000xi32>) -> tensor<1x1600000xi32>
def val_main_v2 (x1 : (⟨S2x1600000, .i32⟩ : BufTy).Contents (Elt F)) : (⟨S1x1600000, .i32⟩ : BufTy).Contents (Elt F) :=
  extractStridedSlice S1x1600000 ![1, 0] (x1) slices_S2x1600000_S1x1600000_1_0

-- %3 = stablehlo.reshape %2 : (tensor<1x1600000xi32>) -> tensor<1600000xi32>
def val_main_v3 (x1 : (⟨S2x1600000, .i32⟩ : BufTy).Contents (Elt F)) : (⟨S1600000, .i32⟩ : BufTy).Contents (Elt F) :=
  shapeCast _ (val_main_v2 (F := F) x1) shapeCasts_S1x1600000_S1600000

-- %4 = stablehlo.iota dim = 0 : tensor<100000xi32>
def val_main_v4 : (⟨S100000, .i32⟩ : BufTy).Contents (Elt F) :=
  iotaInDim S100000 32 0

-- %5 = stablehlo.concatenate %1, %4, dim = 0 : (tensor<1600000xi32>, tensor<100000xi32>) -> tensor<1700000xi32>
def val_main_v5 (x1 : (⟨S2x1600000, .i32⟩ : BufTy).Contents (Elt F)) : (⟨S1700000, .i32⟩ : BufTy).Contents (Elt F) :=
  concatenate S1700000 0 [⟨S1600000, (val_main_v1 (F := F) x1)⟩, ⟨S100000, (val_main_v4 (F := F))⟩] concatenates_S1600000_S100000_S1700000_d0

-- %6 = stablehlo.concatenate %3, %4, dim = 0 : (tensor<1600000xi32>, tensor<100000xi32>) -> tensor<1700000xi32>
def val_main_v6 (x1 : (⟨S2x1600000, .i32⟩ : BufTy).Contents (Elt F)) : (⟨S1700000, .i32⟩ : BufTy).Contents (Elt F) :=
  concatenate S1700000 0 [⟨S1600000, (val_main_v3 (F := F) x1)⟩, ⟨S100000, (val_main_v4 (F := F))⟩] concatenates_S1600000_S100000_S1700000_d0

-- %cst = stablehlo.constant dense<1.000000e+00> : tensor<f32>
def val_main_cst : (⟨S_, .f32⟩ : BufTy).Contents (Elt F) :=
  constant S_ .f32 0x3F800000#32

-- %7 = stablehlo.broadcast_in_dim %cst, dims = [] : (tensor<f32>) -> tensor<1700000xf32>
def val_main_v7 : (⟨S1700000, .f32⟩ : BufTy).Contents (Elt F) :=
  broadcastInDim S1700000 ![] bcast_S_S1700000 (val_main_cst (F := F))

-- %cst_0 = stablehlo.constant dense<0.000000e+00> : tensor<f32>
def val_main_cst_0 : (⟨S_, .f32⟩ : BufTy).Contents (Elt F) :=
  constant S_ .f32 0x00000000#32

-- %8 = stablehlo.broadcast_in_dim %cst_0, dims = [] : (tensor<f32>) -> tensor<100000xf32>
def val_main_v8 : (⟨S100000, .f32⟩ : BufTy).Contents (Elt F) :=
  broadcastInDim S100000 ![] bcast_S_S100000 (val_main_cst_0 (F := F))

-- %9 = stablehlo.broadcast_in_dim %6, dims = [0] : (tensor<1700000xi32>) -> tensor<1700000x1xi32>
def val_main_v9 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

-- %10 = "stablehlo.scatter"(%8, %9, %7) <{indices_are_sorted = false, scatter_dimension_numbers = #stablehlo.scatter<inserted_window_dims = [0], scatter_dims_to_operand_dims = [0], index_vector_dim = 1>, unique_indices = false}> ( {
def val_main_v10 (x1 : (⟨S2x1600000, .i32⟩ : BufTy).Contents (Elt F)) : (⟨S100000, .f32⟩ : BufTy).Contents (Elt F) :=
  Host.scatterAdd scatter_S100000_S1700000x1_S1700000_n_0_0_1 (val_main_v8 (F := F)) (val_main_v9 (F := F) x1) (val_main_v7 (F := F))

-- %cst_1 = stablehlo.constant dense<0.000000e+00> : tensor<f32>
def val_main_cst_1 : (⟨S_, .f32⟩ : BufTy).Contents (Elt F) :=
  constant S_ .f32 0x00000000#32

-- %11 = stablehlo.broadcast_in_dim %cst_1, dims = [] : (tensor<f32>) -> tensor<100000xf32>
def val_main_v11 : (⟨S100000, .f32⟩ : BufTy).Contents (Elt F) :=
  broadcastInDim S100000 ![] bcast_S_S100000 (val_main_cst_1 (F := F))

-- %12 = stablehlo.compare GT, %10, %11, FLOAT : (tensor<100000xf32>, tensor<100000xf32>) -> tensor<100000xi1>
def val_main_v12 (x1 : (⟨S2x1600000, .i32⟩ : BufTy).Contents (Elt F)) : (⟨S100000, .i1⟩ : BufTy).Contents (Elt F) :=
  cmpf .ogt (val_main_v10 (F := F) x1) (val_main_v11 (F := F))

-- %13 = stablehlo.rsqrt %10 : tensor<100000xf32>
def val_main_v13 (x1 : (⟨S2x1600000, .i32⟩ : BufTy).Contents (Elt F)) : (⟨S100000, .f32⟩ : BufTy).Contents (Elt F) :=
  Host.rsqrt (val_main_v10 (F := F) x1)

-- %cst_2 = stablehlo.constant dense<0.000000e+00> : tensor<f32>
def val_main_cst_2 : (⟨S_, .f32⟩ : BufTy).Contents (Elt F) :=
  constant S_ .f32 0x00000000#32

-- %14 = stablehlo.broadcast_in_dim %cst_2, dims = [] : (tensor<f32>) -> tensor<100000xf32>
def val_main_v14 : (⟨S100000, .f32⟩ : BufTy).Contents (Elt F) :=
  broadcastInDim S100000 ![] bcast_S_S100000 (val_main_cst_2 (F := F))

-- %15 = func.call @_where(…) (record main_call0) result 0: @_where's %0 = stablehlo.select %arg0, %arg1, %arg2 : tensor<100000xi1>, tensor<100000xf32>
def val_main_v15 (x1 : (⟨S2x1600000, .i32⟩ : BufTy).Contents (Elt F)) : (⟨S100000, .f32⟩ : BufTy).Contents (Elt F) :=
  select (val_main_v12 (F := F) x1) (val_main_v13 (F := F) x1) (val_main_v14 (F := F))

-- %c = stablehlo.constant dense<0> : tensor<i32>
def val_main_c : (⟨S_, .i32⟩ : BufTy).Contents (Elt F) :=
  constantI S_ 32 0#32

-- %16 = stablehlo.broadcast_in_dim %c, dims = [] : (tensor<i32>) -> tensor<1700000xi32>
def val_main_v16 : (⟨S1700000, .i32⟩ : BufTy).Contents (Elt F) :=
  broadcastInDim S1700000 ![] bcast_S_S1700000 (val_main_c (F := F))

-- %17 = stablehlo.compare LT, %5, %16, SIGNED : (tensor<1700000xi32>, tensor<1700000xi32>) -> tensor<1700000xi1>
def val_main_v17 (x1 : (⟨S2x1600000, .i32⟩ : BufTy).Contents (Elt F)) : (⟨S1700000, .i1⟩ : BufTy).Contents (Elt F) :=
  cmpi .slt (val_main_v5 (F := F) x1) (val_main_v16 (F := F))

-- %c_3 = stablehlo.constant dense<100000> : tensor<i32>
def val_main_c_3 : (⟨S_, .i32⟩ : BufTy).Contents (Elt F) :=
  constantI S_ 32 100000#32

-- %18 = stablehlo.broadcast_in_dim %c_3, dims = [] : (tensor<i32>) -> tensor<1700000xi32>
def val_main_v18 : (⟨S1700000, .i32⟩ : BufTy).Contents (Elt F) :=
  broadcastInDim S1700000 ![] bcast_S_S1700000 (val_main_c_3 (F := F))

-- %19 = stablehlo.add %5, %18 : tensor<1700000xi32>
def val_main_v19 (x1 : (⟨S2x1600000, .i32⟩ : BufTy).Contents (Elt F)) : (⟨S1700000, .i32⟩ : BufTy).Contents (Elt F) :=
  addi (val_main_v5 (F := F) x1) (val_main_v18 (F := F))

-- %20 = stablehlo.select %17, %19, %5 : tensor<1700000xi1>, tensor<1700000xi32>
def val_main_v20 (x1 : (⟨S2x1600000, .i32⟩ : BufTy).Contents (Elt F)) : (⟨S1700000, .i32⟩ : BufTy).Contents (Elt F) :=
  select (val_main_v17 (F := F) x1) (val_main_v19 (F := F) x1) (val_main_v5 (F := F) x1)

-- %21 = stablehlo.broadcast_in_dim %20, dims = [0] : (tensor<1700000xi32>) -> tensor<1700000x1xi32>
def val_main_v21 (x1 : (⟨S2x1600000, .i32⟩ : BufTy).Contents (Elt F)) : (⟨S1700000x1, .i32⟩ : BufTy).Contents (Elt F) :=
  broadcastInDim S1700000x1 ![0] bcast_S1700000_S1700000x1_0 (val_main_v20 (F := F) x1)

-- %22 = "stablehlo.gather"(%15, %21) <{dimension_numbers = #stablehlo.gather<collapsed_slice_dims = [0], start_index_map = [0], index_vector_dim = 1>, indices_are_sorted = false, slice_sizes = array<i64: 1>}> : (tensor<100000xf32>, tensor<1700000x1xi32>) -> tensor<1700000xf32>
def val_main_v22 (x1 : (⟨S2x1600000, .i32⟩ : BufTy).Contents (Elt F)) : (⟨S1700000, .f32⟩ : BufTy).Contents (Elt F) :=
  Host.gather gather_S100000_S1700000x1_S1700000_n_0_n_n_0_1_1 (val_main_v15 (F := F) x1) (val_main_v21 (F := F) x1)

-- %23 = stablehlo.multiply %22, %7 : tensor<1700000xf32>
def val_main_v23 (x1 : (⟨S2x1600000, .i32⟩ : BufTy).Contents (Elt F)) : (⟨S1700000, .f32⟩ : BufTy).Contents (Elt F) :=
  mulf (val_main_v22 (F := F) x1) (val_main_v7 (F := F))

-- %c_4 = stablehlo.constant dense<0> : tensor<i32>
def val_main_c_4 : (⟨S_, .i32⟩ : BufTy).Contents (Elt F) :=
  constantI S_ 32 0#32

-- %24 = stablehlo.broadcast_in_dim %c_4, dims = [] : (tensor<i32>) -> tensor<1700000xi32>
def val_main_v24 : (⟨S1700000, .i32⟩ : BufTy).Contents (Elt F) :=
  broadcastInDim S1700000 ![] bcast_S_S1700000 (val_main_c_4 (F := F))

-- %25 = stablehlo.compare LT, %6, %24, SIGNED : (tensor<1700000xi32>, tensor<1700000xi32>) -> tensor<1700000xi1>
def val_main_v25 (x1 : (⟨S2x1600000, .i32⟩ : BufTy).Contents (Elt F)) : (⟨S1700000, .i1⟩ : BufTy).Contents (Elt F) :=
  cmpi .slt (val_main_v6 (F := F) x1) (val_main_v24 (F := F))

-- %c_5 = stablehlo.constant dense<100000> : tensor<i32>
def val_main_c_5 : (⟨S_, .i32⟩ : BufTy).Contents (Elt F) :=
  constantI S_ 32 100000#32

-- %26 = stablehlo.broadcast_in_dim %c_5, dims = [] : (tensor<i32>) -> tensor<1700000xi32>
def val_main_v26 : (⟨S1700000, .i32⟩ : BufTy).Contents (Elt F) :=
  broadcastInDim S1700000 ![] bcast_S_S1700000 (val_main_c_5 (F := F))

-- %27 = stablehlo.add %6, %26 : tensor<1700000xi32>
def val_main_v27 (x1 : (⟨S2x1600000, .i32⟩ : BufTy).Contents (Elt F)) : (⟨S1700000, .i32⟩ : BufTy).Contents (Elt F) :=
  addi (val_main_v6 (F := F) x1) (val_main_v26 (F := F))

-- %28 = stablehlo.select %25, %27, %6 : tensor<1700000xi1>, tensor<1700000xi32>
def val_main_v28 (x1 : (⟨S2x1600000, .i32⟩ : BufTy).Contents (Elt F)) : (⟨S1700000, .i32⟩ : BufTy).Contents (Elt F) :=
  select (val_main_v25 (F := F) x1) (val_main_v27 (F := F) x1) (val_main_v6 (F := F) x1)

-- %29 = stablehlo.broadcast_in_dim %28, dims = [0] : (tensor<1700000xi32>) -> tensor<1700000x1xi32>
def val_main_v29 (x1 : (⟨S2x1600000, .i32⟩ : BufTy).Contents (Elt F)) : (⟨S1700000x1, .i32⟩ : BufTy).Contents (Elt F) :=
  broadcastInDim S1700000x1 ![0] bcast_S1700000_S1700000x1_0 (val_main_v28 (F := F) x1)

-- %30 = "stablehlo.gather"(%15, %29) <{dimension_numbers = #stablehlo.gather<collapsed_slice_dims = [0], start_index_map = [0], index_vector_dim = 1>, indices_are_sorted = false, slice_sizes = array<i64: 1>}> : (tensor<100000xf32>, tensor<1700000x1xi32>) -> tensor<1700000xf32>
def val_main_v30 (x1 : (⟨S2x1600000, .i32⟩ : BufTy).Contents (Elt F)) : (⟨S1700000, .f32⟩ : BufTy).Contents (Elt F) :=
  Host.gather gather_S100000_S1700000x1_S1700000_n_0_n_n_0_1_1 (val_main_v15 (F := F) x1) (val_main_v29 (F := F) x1)

-- %31 = stablehlo.multiply %23, %30 : tensor<1700000xf32>
def val_main_v31 (x1 : (⟨S2x1600000, .i32⟩ : BufTy).Contents (Elt F)) : (⟨S1700000, .f32⟩ : BufTy).Contents (Elt F) :=
  mulf (val_main_v23 (F := F) x1) (val_main_v30 (F := F) x1)

-- %32 = stablehlo.broadcast_in_dim %31, dims = [0] : (tensor<1700000xf32>) -> tensor<1700000x1xf32>
def val_main_v32 (x1 : (⟨S2x1600000, .i32⟩ : BufTy).Contents (Elt F)) : (⟨S1700000x1, .f32⟩ : BufTy).Contents (Elt F) :=
  broadcastInDim S1700000x1 ![0] bcast_S1700000_S1700000x1_0 (val_main_v31 (F := F) x1)

-- %c_6 = stablehlo.constant dense<0> : tensor<i32>
def val_main_c_6 : (⟨S_, .i32⟩ : BufTy).Contents (Elt F) :=
  constantI S_ 32 0#32

-- %33 = stablehlo.broadcast_in_dim %c_6, dims = [] : (tensor<i32>) -> tensor<1700000xi32>
def val_main_v33 : (⟨S1700000, .i32⟩ : BufTy).Contents (Elt F) :=
  broadcastInDim S1700000 ![] bcast_S_S1700000 (val_main_c_6 (F := F))

-- %34 = stablehlo.compare LT, %5, %33, SIGNED : (tensor<1700000xi32>, tensor<1700000xi32>) -> tensor<1700000xi1>
def val_main_v34 (x1 : (⟨S2x1600000, .i32⟩ : BufTy).Contents (Elt F)) : (⟨S1700000, .i1⟩ : BufTy).Contents (Elt F) :=
  cmpi .slt (val_main_v5 (F := F) x1) (val_main_v33 (F := F))

-- %c_7 = stablehlo.constant dense<100000> : tensor<i32>
def val_main_c_7 : (⟨S_, .i32⟩ : BufTy).Contents (Elt F) :=
  constantI S_ 32 100000#32

-- %35 = stablehlo.broadcast_in_dim %c_7, dims = [] : (tensor<i32>) -> tensor<1700000xi32>
def val_main_v35 : (⟨S1700000, .i32⟩ : BufTy).Contents (Elt F) :=
  broadcastInDim S1700000 ![] bcast_S_S1700000 (val_main_c_7 (F := F))

-- %36 = stablehlo.add %5, %35 : tensor<1700000xi32>
def val_main_v36 (x1 : (⟨S2x1600000, .i32⟩ : BufTy).Contents (Elt F)) : (⟨S1700000, .i32⟩ : BufTy).Contents (Elt F) :=
  addi (val_main_v5 (F := F) x1) (val_main_v35 (F := F))

-- %37 = stablehlo.select %34, %36, %5 : tensor<1700000xi1>, tensor<1700000xi32>
def val_main_v37 (x1 : (⟨S2x1600000, .i32⟩ : BufTy).Contents (Elt F)) : (⟨S1700000, .i32⟩ : BufTy).Contents (Elt F) :=
  select (val_main_v34 (F := F) x1) (val_main_v36 (F := F) x1) (val_main_v5 (F := F) x1)

-- %38 = stablehlo.broadcast_in_dim %37, dims = [0] : (tensor<1700000xi32>) -> tensor<1700000x1xi32>
def val_main_v38 (x1 : (⟨S2x1600000, .i32⟩ : BufTy).Contents (Elt F)) : (⟨S1700000x1, .i32⟩ : BufTy).Contents (Elt F) :=
  broadcastInDim S1700000x1 ![0] bcast_S1700000_S1700000x1_0 (val_main_v37 (F := F) x1)

-- %39 = "stablehlo.gather"(%arg0, %38) <{dimension_numbers = #stablehlo.gather<offset_dims = [1], collapsed_slice_dims = [0], start_index_map = [0], index_vector_dim = 1>, indices_are_sorted = false, slice_sizes = array<i64: 1, 64>}> : (tensor<100000x64xf32>, tensor<1700000x1xi32>) -> tensor<1700000x64xf32>
def val_main_v39 (x0 : (⟨S100000x64, .f32⟩ : BufTy).Contents (Elt F)) (x1 : (⟨S2x1600000, .i32⟩ : BufTy).Contents (Elt F)) : (⟨S1700000x64, .f32⟩ : BufTy).Contents (Elt F) :=
  Host.gather gather_S100000x64_S1700000x1_S1700000x64_1_0_n_n_0_1_164 (x0) (val_main_v38 (F := F) x1)

-- %40 = stablehlo.broadcast_in_dim %32, dims = [0, 1] : (tensor<1700000x1xf32>) -> tensor<1700000x64xf32>
def val_main_v40 (x1 : (⟨S2x1600000, .i32⟩ : BufTy).Contents (Elt F)) : (⟨S1700000x64, .f32⟩ : BufTy).Contents (Elt F) :=
  broadcastInDim S1700000x64 ![0, 1] bcast_S1700000x1_S1700000x64_0_1 (val_main_v32 (F := F) x1)

-- %41 = stablehlo.multiply %40, %39 : tensor<1700000x64xf32>
def val_main_v41 (x0 : (⟨S100000x64, .f32⟩ : BufTy).Contents (Elt F)) (x1 : (⟨S2x1600000, .i32⟩ : BufTy).Contents (Elt F)) : (⟨S1700000x64, .f32⟩ : BufTy).Contents (Elt F) :=
  mulf (val_main_v40 (F := F) x1) (val_main_v39 (F := F) x0 x1)

-- %cst_8 = stablehlo.constant dense<0.000000e+00> : tensor<f32>
def val_main_cst_8 : (⟨S_, .f32⟩ : BufTy).Contents (Elt F) :=
  constant S_ .f32 0x00000000#32

-- %42 = stablehlo.broadcast_in_dim %cst_8, dims = [] : (tensor<f32>) -> tensor<100000x64xf32>
def val_main_v42 : (⟨S100000x64, .f32⟩ : BufTy).Contents (Elt F) :=
  broadcastInDim S100000x64 ![] bcast_S_S100000x64 (val_main_cst_8 (F := F))

-- %43 = stablehlo.broadcast_in_dim %6, dims = [0] : (tensor<1700000xi32>) -> tensor<1700000x1xi32>
def val_main_v43 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

-- %44 = "stablehlo.scatter"(%42, %43, %41) <{indices_are_sorted = false, scatter_dimension_numbers = #stablehlo.scatter<update_window_dims = [1], inserted_window_dims = [0], scatter_dims_to_operand_dims = [0], index_vector_dim = 1>, unique_indices = false}> ( {
def val_main_v44 (x0 : (⟨S100000x64, .f32⟩ : BufTy).Contents (Elt F)) (x1 : (⟨S2x1600000, .i32⟩ : BufTy).Contents (Elt F)) : (⟨S100000x64, .f32⟩ : BufTy).Contents (Elt F) :=
  Host.scatterAdd scatter_S100000x64_S1700000x1_S1700000x64_1_0_0_1 (val_main_v42 (F := F)) (val_main_v43 (F := F) x1) (val_main_v41 (F := F) x0 x1)

-- %45 = stablehlo.broadcast_in_dim %31, dims = [0] : (tensor<1700000xf32>) -> tensor<1700000x1xf32>
def val_main_v45 (x1 : (⟨S2x1600000, .i32⟩ : BufTy).Contents (Elt F)) : (⟨S1700000x1, .f32⟩ : BufTy).Contents (Elt F) :=
  broadcastInDim S1700000x1 ![0] bcast_S1700000_S1700000x1_0 (val_main_v31 (F := F) x1)

-- %c_9 = stablehlo.constant dense<0> : tensor<i32>
def val_main_c_9 : (⟨S_, .i32⟩ : BufTy).Contents (Elt F) :=
  constantI S_ 32 0#32

-- %46 = stablehlo.broadcast_in_dim %c_9, dims = [] : (tensor<i32>) -> tensor<1700000xi32>
def val_main_v46 : (⟨S1700000, .i32⟩ : BufTy).Contents (Elt F) :=
  broadcastInDim S1700000 ![] bcast_S_S1700000 (val_main_c_9 (F := F))

-- %47 = stablehlo.compare LT, %5, %46, SIGNED : (tensor<1700000xi32>, tensor<1700000xi32>) -> tensor<1700000xi1>
def val_main_v47 (x1 : (⟨S2x1600000, .i32⟩ : BufTy).Contents (Elt F)) : (⟨S1700000, .i1⟩ : BufTy).Contents (Elt F) :=
  cmpi .slt (val_main_v5 (F := F) x1) (val_main_v46 (F := F))

-- %c_10 = stablehlo.constant dense<100000> : tensor<i32>
def val_main_c_10 : (⟨S_, .i32⟩ : BufTy).Contents (Elt F) :=
  constantI S_ 32 100000#32

-- %48 = stablehlo.broadcast_in_dim %c_10, dims = [] : (tensor<i32>) -> tensor<1700000xi32>
def val_main_v48 : (⟨S1700000, .i32⟩ : BufTy).Contents (Elt F) :=
  broadcastInDim S1700000 ![] bcast_S_S1700000 (val_main_c_10 (F := F))

-- %49 = stablehlo.add %5, %48 : tensor<1700000xi32>
def val_main_v49 (x1 : (⟨S2x1600000, .i32⟩ : BufTy).Contents (Elt F)) : (⟨S1700000, .i32⟩ : BufTy).Contents (Elt F) :=
  addi (val_main_v5 (F := F) x1) (val_main_v48 (F := F))

-- %50 = stablehlo.select %47, %49, %5 : tensor<1700000xi1>, tensor<1700000xi32>
def val_main_v50 (x1 : (⟨S2x1600000, .i32⟩ : BufTy).Contents (Elt F)) : (⟨S1700000, .i32⟩ : BufTy).Contents (Elt F) :=
  select (val_main_v47 (F := F) x1) (val_main_v49 (F := F) x1) (val_main_v5 (F := F) x1)

-- %51 = stablehlo.broadcast_in_dim %50, dims = [0] : (tensor<1700000xi32>) -> tensor<1700000x1xi32>
def val_main_v51 (x1 : (⟨S2x1600000, .i32⟩ : BufTy).Contents (Elt F)) : (⟨S1700000x1, .i32⟩ : BufTy).Contents (Elt F) :=
  broadcastInDim S1700000x1 ![0] bcast_S1700000_S1700000x1_0 (val_main_v50 (F := F) x1)

-- %52 = "stablehlo.gather"(%44, %51) <{dimension_numbers = #stablehlo.gather<offset_dims = [1], collapsed_slice_dims = [0], start_index_map = [0], index_vector_dim = 1>, indices_are_sorted = false, slice_sizes = array<i64: 1, 64>}> : (tensor<100000x64xf32>, tensor<1700000x1xi32>) -> tensor<1700000x64xf32>
def val_main_v52 (x0 : (⟨S100000x64, .f32⟩ : BufTy).Contents (Elt F)) (x1 : (⟨S2x1600000, .i32⟩ : BufTy).Contents (Elt F)) : (⟨S1700000x64, .f32⟩ : BufTy).Contents (Elt F) :=
  Host.gather gather_S100000x64_S1700000x1_S1700000x64_1_0_n_n_0_1_164 (val_main_v44 (F := F) x0 x1) (val_main_v51 (F := F) x1)

-- %53 = stablehlo.broadcast_in_dim %45, dims = [0, 1] : (tensor<1700000x1xf32>) -> tensor<1700000x64xf32>
def val_main_v53 (x1 : (⟨S2x1600000, .i32⟩ : BufTy).Contents (Elt F)) : (⟨S1700000x64, .f32⟩ : BufTy).Contents (Elt F) :=
  broadcastInDim S1700000x64 ![0, 1] bcast_S1700000x1_S1700000x64_0_1 (val_main_v45 (F := F) x1)

-- %54 = stablehlo.multiply %53, %52 : tensor<1700000x64xf32>
def val_main_v54 (x0 : (⟨S100000x64, .f32⟩ : BufTy).Contents (Elt F)) (x1 : (⟨S2x1600000, .i32⟩ : BufTy).Contents (Elt F)) : (⟨S1700000x64, .f32⟩ : BufTy).Contents (Elt F) :=
  mulf (val_main_v53 (F := F) x1) (val_main_v52 (F := F) x0 x1)

-- %cst_11 = stablehlo.constant dense<0.000000e+00> : tensor<f32>
def val_main_cst_11 : (⟨S_, .f32⟩ : BufTy).Contents (Elt F) :=
  constant S_ .f32 0x00000000#32

-- %55 = stablehlo.broadcast_in_dim %cst_11, dims = [] : (tensor<f32>) -> tensor<100000x64xf32>
def val_main_v55 : (⟨S100000x64, .f32⟩ : BufTy).Contents (Elt F) :=
  broadcastInDim S100000x64 ![] bcast_S_S100000x64 (val_main_cst_11 (F := F))

-- %56 = stablehlo.broadcast_in_dim %6, dims = [0] : (tensor<1700000xi32>) -> tensor<1700000x1xi32>
def val_main_v56 (x1 : (⟨S2x1600000, .i32⟩ : BufTy).Contents (Elt F)) : (⟨S1700000x1, .i32⟩ : BufTy).Contents (Elt F) :=
  broadcastInDim S1700000x1 ![0] bcast_S1700000_S1700000x1_0 (val_main_v6 (F := F) x1)

-- %57 = "stablehlo.scatter"(%55, %56, %54) <{indices_are_sorted = false, scatter_dimension_numbers = #stablehlo.scatter<update_window_dims = [1], inserted_window_dims = [0], scatter_dims_to_operand_dims = [0], index_vector_dim = 1>, unique_indices = false}> ( {
def val_main_v57 (x0 : (⟨S100000x64, .f32⟩ : BufTy).Contents (Elt F)) (x1 : (⟨S2x1600000, .i32⟩ : BufTy).Contents (Elt F)) : (⟨S100000x64, .f32⟩ : BufTy).Contents (Elt F) :=
  Host.scatterAdd scatter_S100000x64_S1700000x1_S1700000x64_1_0_0_1 (val_main_v55 (F := F)) (val_main_v56 (F := F) x1) (val_main_v54 (F := F) x0 x1)

-- %58 = stablehlo.concatenate %arg0, %44, %57, dim = 1 : (tensor<100000x64xf32>, tensor<100000x64xf32>, tensor<100000x64xf32>) -> tensor<100000x192xf32>
def val_main_v58 (x0 : (⟨S100000x64, .f32⟩ : BufTy).Contents (Elt F)) (x1 : (⟨S2x1600000, .i32⟩ : BufTy).Contents (Elt F)) : (⟨S100000x192, .f32⟩ : BufTy).Contents (Elt F) :=
  concatenate S100000x192 1 [⟨S100000x64, (x0)⟩, ⟨S100000x64, (val_main_v44 (F := F) x0 x1)⟩, ⟨S100000x64, (val_main_v57 (F := F) x0 x1)⟩] concatenates_S100000x64_S100000x64_S100000x64_S100000x192_d1

-- %59 = stablehlo.dot_general %58, %arg2, contracting_dims = [1] x [0], precision = [DEFAULT, DEFAULT] : (tensor<100000x192xf32>, tensor<192x64xf32>) -> tensor<100000x64xf32>
def val_main_v59 (x0 : (⟨S100000x64, .f32⟩ : BufTy).Contents (Elt F)) (x1 : (⟨S2x1600000, .i32⟩ : BufTy).Contents (Elt F)) (x2 : (⟨S192x64, .f32⟩ : BufTy).Contents (Elt F)) : (⟨S100000x64, .f32⟩ : BufTy).Contents (Elt F) :=
  Host.dotGeneral dot_S100000x192_S192x64_S100000x64_1_0_0_1_n_n none (val_main_v58 (F := F) x0 x1) (x2)
theorem lhs_main_v59_0 (i : S100000x64.Idx) (q : dot_S100000x192_S192x64_S100000x64_1_0_0_1_n_n.contr.Idx) :
    (dot_S100000x192_S192x64_S100000x64_1_0_0_1_n_n.lhsIdx i q 0).val = (i 0).val := by
  unfold DotDims.lhsIdx
  rw [dif_neg (show ¬(0 : Fin S100000x192.rank) ∈ dot_S100000x192_S192x64_S100000x64_1_0_0_1_n_n.lhsBatch by decide), dif_pos (show (0 : Fin S100000x192.rank) ∈ dot_S100000x192_S192x64_S100000x64_1_0_0_1_n_n.lhsNonContracting by decide)]
  rfl
theorem lhs_main_v59_1 (i : S100000x64.Idx) (q : dot_S100000x192_S192x64_S100000x64_1_0_0_1_n_n.contr.Idx) :
    (dot_S100000x192_S192x64_S100000x64_1_0_0_1_n_n.lhsIdx i q 1).val = (q ⟨0, by decide⟩).val :=
  dot_S100000x192_S192x64_S100000x64_1_0_0_1_n_n.lhsIdx_val_of_single rfl i q
theorem rhs_main_v59_0 (i : S100000x64.Idx) (q : dot_S100000x192_S192x64_S100000x64_1_0_0_1_n_n.contr.Idx) :
    (dot_S100000x192_S192x64_S100000x64_1_0_0_1_n_n.rhsIdx i q 0).val = (q ⟨0, by decide⟩).val :=
  dot_S100000x192_S192x64_S100000x64_1_0_0_1_n_n.rhsIdx_val_of_single rfl i q
theorem rhs_main_v59_1 (i : S100000x64.Idx) (q : dot_S100000x192_S192x64_S100000x64_1_0_0_1_n_n.contr.Idx) :
    (dot_S100000x192_S192x64_S100000x64_1_0_0_1_n_n.rhsIdx i q 1).val = (i 1).val := by
  unfold DotDims.rhsIdx
  rw [dif_neg (show ¬(1 : Fin S192x64.rank) ∈ dot_S100000x192_S192x64_S100000x64_1_0_0_1_n_n.rhsBatch by decide), dif_pos (show (1 : Fin S192x64.rank) ∈ dot_S100000x192_S192x64_S100000x64_1_0_0_1_n_n.rhsNonContracting by decide)]
  rfl
abbrev lidx_main_v59 (i : S100000x64.Idx) (k : Fin 192) : S100000x192.Idx := fun a => match a with
  | ⟨0, _⟩ => ⟨(i 0).val, (i 0).isLt⟩
  | ⟨1, _⟩ => ⟨k.val, k.isLt⟩
abbrev ridx_main_v59 (i : S100000x64.Idx) (k : Fin 192) : S192x64.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v59_apply (x0 : (⟨S100000x64, .f32⟩ : BufTy).Contents (Elt Ideal)) (x1 : (⟨S2x1600000, .i32⟩ : BufTy).Contents (Elt Ideal)) (x2 : (⟨S192x64, .f32⟩ : BufTy).Contents (Elt Ideal)) (i : S100000x64.Idx) :
    val_main_v59 (F := Ideal) x0 x1 x2 i = ∑ k : Fin 192, (val_main_v58 (F := Ideal) x0 x1) (lidx_main_v59 i k) * x2 (ridx_main_v59 i k) := by
  unfold val_main_v59
  generalize val_main_v58 (F := Ideal) x0 x1 = y0
  simp only [Host.dotGeneral]
  rw [Ideal.dotGeneral_apply, ← Equiv.sum_comp (ValueIdx.contrEquiv1 dot_S100000x192_S192x64_S100000x64_1_0_0_1_n_n 192 rfl rfl).symm]
  refine Finset.sum_congr rfl fun k _ => ?_
  have hk := ValueIdx.contrEquiv1_symm_val dot_S100000x192_S192x64_S100000x64_1_0_0_1_n_n 192 rfl rfl k
  have el : dot_S100000x192_S192x64_S100000x64_1_0_0_1_n_n.lhsIdx i ((ValueIdx.contrEquiv1 dot_S100000x192_S192x64_S100000x64_1_0_0_1_n_n 192 rfl rfl).symm k) = lidx_main_v59 i k := funext fun a => Fin.ext (by
    match a with
    | ⟨0, _⟩ => exact lhs_main_v59_0 _ _
    | ⟨1, _⟩ => exact (lhs_main_v59_1 _ _).trans hk)
  have er : dot_S100000x192_S192x64_S100000x64_1_0_0_1_n_n.rhsIdx i ((ValueIdx.contrEquiv1 dot_S100000x192_S192x64_S100000x64_1_0_0_1_n_n 192 rfl rfl).symm k) = ridx_main_v59 i k := funext fun a => Fin.ext (by
    match a with
    | ⟨0, _⟩ => exact (rhs_main_v59_0 _ _).trans hk
    | ⟨1, _⟩ => exact rhs_main_v59_1 _ _)
  rw [el, er]

-- %60 = stablehlo.broadcast_in_dim %arg3, dims = [1] : (tensor<64xf32>) -> tensor<1x64xf32>
def val_main_v60 (x3 : (⟨S64, .f32⟩ : BufTy).Contents (Elt F)) : (⟨S1x64, .f32⟩ : BufTy).Contents (Elt F) :=
  broadcastInDim S1x64 ![1] bcast_S64_S1x64_1 (x3)
abbrev idx_main_v60 (i : S1x64.Idx) : S64.Idx := fun a => match a with
  | ⟨0, _⟩ => ⟨(i 1).val, (i 1).isLt⟩
theorem val_main_v60_apply (x3 : (⟨S64, .f32⟩ : BufTy).Contents (Elt F)) (i : S1x64.Idx) :
    val_main_v60 (F := F) x3 i = x3 (idx_main_v60 i) := by
  unfold val_main_v60
  exact broadcastInDim_apply _ bcast_S64_S1x64_1 x3 i (idx_main_v60 i) (fun a => match a with
    | ⟨0, _⟩ => by show (i 1).val = if (64 : Nat) = 1 then 0 else (i 1).val; rw [if_neg (by decide)])

-- %61 = stablehlo.broadcast_in_dim %60, dims = [0, 1] : (tensor<1x64xf32>) -> tensor<100000x64xf32>
def val_main_v61 (x3 : (⟨S64, .f32⟩ : BufTy).Contents (Elt F)) : (⟨S100000x64, .f32⟩ : BufTy).Contents (Elt F) :=
  broadcastInDim S100000x64 ![0, 1] bcast_S1x64_S100000x64_0_1 (val_main_v60 (F := F) x3)
abbrev idx_main_v61 (i : S100000x64.Idx) : S1x64.Idx := fun a => match a with
  | ⟨0, _⟩ => ⟨0, Nat.one_pos⟩
  | ⟨1, _⟩ => ⟨(i 1).val, (i 1).isLt⟩
theorem val_main_v61_apply (x3 : (⟨S64, .f32⟩ : BufTy).Contents (Elt F)) (i : S100000x64.Idx) :
    val_main_v61 (F := F) x3 i = val_main_v60 (F := F) x3 (idx_main_v61 i) := by
  unfold val_main_v61
  generalize val_main_v60 (F := F) x3 = y
  exact broadcastInDim_apply _ bcast_S1x64_S100000x64_0_1 y i (idx_main_v61 i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

-- %62 = stablehlo.add %59, %61 : tensor<100000x64xf32>
def val_main_v62 (x0 : (⟨S100000x64, .f32⟩ : BufTy).Contents (Elt F)) (x1 : (⟨S2x1600000, .i32⟩ : BufTy).Contents (Elt F)) (x2 : (⟨S192x64, .f32⟩ : BufTy).Contents (Elt F)) (x3 : (⟨S64, .f32⟩ : BufTy).Contents (Elt F)) : (⟨S100000x64, .f32⟩ : BufTy).Contents (Elt F) :=
  addf (val_main_v59 (F := F) x0 x1 x2) (val_main_v61 (F := F) x3)
theorem val_main_v62_apply (x0 : (⟨S100000x64, .f32⟩ : BufTy).Contents (Elt F)) (x1 : (⟨S2x1600000, .i32⟩ : BufTy).Contents (Elt F)) (x2 : (⟨S192x64, .f32⟩ : BufTy).Contents (Elt F)) (x3 : (⟨S64, .f32⟩ : BufTy).Contents (Elt F)) (i : S100000x64.Idx) :
    val_main_v62 (F := F) x0 x1 x2 x3 i = FloatOps.addf (val_main_v59 (F := F) x0 x1 x2 i) (val_main_v61 (F := F) x3 i) := rfl

end Cert.ReferenceIdeal.Stages

end
-- ==== Proof.KernelIdealHost.lean ====
/-
  The kernel program's host prefix computes the reference's propagated features.

  Before its one region the kernel program runs the same array operations the reference runs to make its two
  propagated feature matrices — the degrees from the edge list, their inverse square roots, the normalised
  gather–scale–scatter, once from x (giving h1) and once more from h1 (giving h2) — and reshapes the bias from
  64 entries to one row of 64. What the region finds in the buffers of h1, h2 and the bias row is read back
  operation by operation: an operation's result buffer holds its function of its operands' contents, every other
  buffer what it held before.

  The 73 operations are read in three stretches. The first 19 build the edge lists with the self loops appended
  (`main_v5`, `main_v6`), the constant one (`main_v7`), and the three operands of the selection (is the degree
  positive; its inverse square root; zero). The 20th is the selection itself, written through typed references:
  carrying contents between a buffer's own type and the literal type it equals changes nothing, so it writes the
  element-wise selection. The last 53 read only those buffers and x, and composed are, literal for literal, the
  reference's stages `val_main_v16` … `val_main_v57` over the stages `val_main_v5`, `val_main_v6`,
  `val_main_v7`, `val_main_v15` and x. So h1 and h2 as the region finds them are the reference's stages
  `val_main_v44` and `val_main_v57` of the launch contents of x and the edge array; and the bias row's entry
  (0, q) is entry q of the launched bias, since a reshape keeps the row-major position.
-/
import proofs.«155070_j50783693308333_2_alg».proof.Proof.Gen.KernelIdeal.Frame
import proofs.«155070_j50783693308333_2_alg».proof.Proof.ReferenceStages
import Idealize.ShloMosaic.Lib.StableHlo.Run
import Idealize.ShloMosaic.Lib.Pipeline.Frame
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-! ### After the first 19 operations -/

set_option maxRecDepth 16384 in
set_option maxHeartbeats 4000000 in
/-- The edge sources with the self loops appended. -/
theorem first_main_v5 (c : Dev nD) :
    after (hostOps0 (F := Ideal)) (fun b => m (c, b)) (Proc.devRef .tc main_v5) = Cert.ReferenceIdeal.Stages.val_main_v5 (F := Ideal) (m ((c.tc : Thread nD τ).loc main_arg1)) := by
  simp only [Gen.hostOps0]
  after_results_simp
  try simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  try rfl

set_option maxRecDepth 16384 in
set_option maxHeartbeats 4000000 in
/-- The edge targets with the self loops appended. -/
theorem first_main_v6 (c : Dev nD) :
    after (hostOps0 (F := Ideal)) (fun b => m (c, b)) (Proc.devRef .tc main_v6) = Cert.ReferenceIdeal.Stages.val_main_v6 (F := Ideal) (m ((c.tc : Thread nD τ).loc main_arg1)) := by
  simp only [Gen.hostOps0]
  after_results_simp
  try simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  try rfl

set_option maxRecDepth 16384 in
set_option maxHeartbeats 4000000 in
/-- The constant one, once per edge. -/
theorem first_main_v7 (c : Dev nD) :
    after (hostOps0 (F := Ideal)) (fun b => m (c, b)) (Proc.devRef .tc main_v7) = Cert.ReferenceIdeal.Stages.val_main_v7 (F := Ideal) := by
  simp only [Gen.hostOps0]
  after_results_simp
  try simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  try rfl

set_option maxRecDepth 16384 in
set_option maxHeartbeats 4000000 in
/-- Is the degree positive. -/
theorem first_main_v12 (c : Dev nD) :
    after (hostOps0 (F := Ideal)) (fun b => m (c, b)) (Proc.devRef .tc main_v12) = Cert.ReferenceIdeal.Stages.val_main_v12 (F := Ideal) (m ((c.tc : Thread nD τ).loc main_arg1)) := by
  simp only [Gen.hostOps0]
  after_results_simp
  try simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  try rfl

set_option maxRecDepth 16384 in
set_option maxHeartbeats 4000000 in
/-- The degree's inverse square root. -/
theorem first_main_v13 (c : Dev nD) :
    after (hostOps0 (F := Ideal)) (fun b => m (c, b)) (Proc.devRef .tc main_v13) = Cert.ReferenceIdeal.Stages.val_main_v13 (F := Ideal) (m ((c.tc : Thread nD τ).loc main_arg1)) := by
  simp only [Gen.hostOps0]
  after_results_simp
  try simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  try rfl

set_option maxRecDepth 16384 in
set_option maxHeartbeats 4000000 in
/-- Zero, once per node. -/
theorem first_main_v14 (c : Dev nD) :
    after (hostOps0 (F := Ideal)) (fun b => m (c, b)) (Proc.devRef .tc main_v14) = Cert.ReferenceIdeal.Stages.val_main_v14 (F := Ideal) := by
  simp only [Gen.hostOps0]
  after_results_simp
  try simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  try rfl

set_option maxRecDepth 16384 in
set_option maxHeartbeats 4000000 in
/-- None of the first 19 operations writes x. -/
theorem first_main_arg0 (c : Dev nD) :
    after (hostOps0 (F := Ideal)) (fun b => m (c, b)) (Proc.devRef .tc main_arg0) = m ((c.tc : Thread nD τ).loc main_arg0) := by
  simp only [Gen.hostOps0]
  after_results_simp
  try simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  try rfl

/-! ### The outlined selection -/

set_option maxRecDepth 16384 in
/-- The selection written through typed references is the element-wise selection: carrying contents between a
    buffer's own type and the literal type it equals changes nothing. -/
theorem where_value (A : (main_v12 : Ref sig .tc).ty.Contents (Elt Ideal)) (B : (main_v13 : Ref sig .tc).ty.Contents (Elt Ideal))
    (C : (main_v14 : Ref sig .tc).ty.Contents (Elt Ideal)) :
    (TRef.of main_v15 : TRef sig ⟨S100000, .f32⟩).toBuf (Val := Elt Ideal)
      (select ((TRef.of main_v12 : TRef sig ⟨S100000, .i1⟩).ofBuf (Val := Elt Ideal) A)
        ((TRef.of main_v13 : TRef sig ⟨S100000, .f32⟩).ofBuf (Val := Elt Ideal) B)
        ((TRef.of main_v14 : TRef sig ⟨S100000, .f32⟩).ofBuf (Val := Elt Ideal) C))
      = (select (s := S100000) (A : (⟨S100000, .i1⟩ : BufTy).Contents (Elt Ideal)) (B : (⟨S100000, .f32⟩ : BufTy).Contents (Elt Ideal))
          (C : (⟨S100000, .f32⟩ : BufTy).Contents (Elt Ideal)) : (⟨S100000, .f32⟩ : BufTy).Contents (Elt Ideal)) := rfl

set_option maxRecDepth 16384 in
/-- What the selection writes, from any contents. -/
theorem where_result (W : Valuation τ sig (Elt Ideal)) :
    after (hostOps0_1 (F := Ideal)) W (Proc.devRef .tc main_v15)
      = (select (s := S100000) (W (Proc.devRef .tc main_v12) : (⟨S100000, .i1⟩ : BufTy).Contents (Elt Ideal))
          (W (Proc.devRef .tc main_v13) : (⟨S100000, .f32⟩ : BufTy).Contents (Elt Ideal))
          (W (Proc.devRef .tc main_v14) : (⟨S100000, .f32⟩ : BufTy).Contents (Elt Ideal)) : (⟨S100000, .f32⟩ : BufTy).Contents (Elt Ideal)) := by
  simp only [Gen.hostOps0_1]
  after_results_simp
  exact where_value _ _ _

set_option maxRecDepth 16384 in
/-- After the first 20 operations `main_v15` holds the reference's stage `val_main_v15`: the inverse square root of
    the degree where the degree is positive, zero elsewhere. -/
theorem where_main_v15 (c : Dev nD) :
    after (hostOps0_1 (F := Ideal)) (after (hostOps0 (F := Ideal)) (fun b => m (c, b))) (Proc.devRef .tc main_v15)
      = Cert.ReferenceIdeal.Stages.val_main_v15 (F := Ideal) (m ((c.tc : Thread nD τ).loc main_arg1)) := by
  rw [where_result, first_main_v12 m c, first_main_v13 m c, first_main_v14 m c]
  rfl

/-- The selection writes `main_v15` only: `main_v5` keeps its contents. -/
theorem where_keeps_main_v5 (W : Valuation τ sig (Elt Ideal)) :
    after (hostOps0_1 (F := Ideal)) W (Proc.devRef .tc main_v5) = W (Proc.devRef .tc main_v5) := by
  simp only [Gen.hostOps0_1]
  after_results_simp

/-- The selection writes `main_v15` only: `main_v6` keeps its contents. -/
theorem where_keeps_main_v6 (W : Valuation τ sig (Elt Ideal)) :
    after (hostOps0_1 (F := Ideal)) W (Proc.devRef .tc main_v6) = W (Proc.devRef .tc main_v6) := by
  simp only [Gen.hostOps0_1]
  after_results_simp

/-- The selection writes `main_v15` only: `main_v7` keeps its contents. -/
theorem where_keeps_main_v7 (W : Valuation τ sig (Elt Ideal)) :
    after (hostOps0_1 (F := Ideal)) W (Proc.devRef .tc main_v7) = W (Proc.devRef .tc main_v7) := by
  simp only [Gen.hostOps0_1]
  after_results_simp

/-- The selection writes `main_v15` only: `main_arg0` keeps its contents. -/
theorem where_keeps_main_arg0 (W : Valuation τ sig (Elt Ideal)) :
    after (hostOps0_1 (F := Ideal)) W (Proc.devRef .tc main_arg0) = W (Proc.devRef .tc main_arg0) := by
  simp only [Gen.hostOps0_1]
  after_results_simp

/-! ### The last 53 operations, from contents known at the five buffers they read -/

set_option maxRecDepth 16384 in
set_option maxHeartbeats 8000000 in
/-- The once propagated features, from the edge lists, the constant one, the inverse square roots and x. -/
theorem last_main_v44 (W : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal))
    (h5 : W (Proc.devRef .tc main_v5) = Cert.ReferenceIdeal.Stages.val_main_v5 (F := Ideal) x1)
    (h6 : W (Proc.devRef .tc main_v6) = Cert.ReferenceIdeal.Stages.val_main_v6 (F := Ideal) x1)
    (h7 : W (Proc.devRef .tc main_v7) = Cert.ReferenceIdeal.Stages.val_main_v7 (F := Ideal))
    (h15 : W (Proc.devRef .tc main_v15) = Cert.ReferenceIdeal.Stages.val_main_v15 (F := Ideal) x1)
    (h0 : W (Proc.devRef .tc main_arg0) = x0) :
    after (hostOps0_2 (F := Ideal)) W (Proc.devRef .tc main_v44) = Cert.ReferenceIdeal.Stages.val_main_v44 (F := Ideal) x0 x1 := by
  simp only [Gen.hostOps0_2]
  after_results_simp
  rw [h5, h6, h7, h15, h0]
  simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  rfl

set_option maxRecDepth 16384 in
set_option maxHeartbeats 8000000 in
/-- The twice propagated features, from the same. -/
theorem last_main_v57 (W : Valuation τ sig (Elt Ideal)) (x0 : (⟨Cert.ReferenceIdeal.S100000x64, .f32⟩ : BufTy).Contents (Elt Ideal)) (x1 : (⟨Cert.ReferenceIdeal.S2x1600000, .i32⟩ : BufTy).Contents (Elt Ideal))
    (h5 : W (Proc.devRef .tc main_v5) = Cert.ReferenceIdeal.Stages.val_main_v5 (F := Ideal) x1)
    (h6 : W (Proc.devRef .tc main_v6) = Cert.ReferenceIdeal.Stages.val_main_v6 (F := Ideal) x1)
    (h7 : W (Proc.devRef .tc main_v7) = Cert.ReferenceIdeal.Stages.val_main_v7 (F := Ideal))
    (h15 : W (Proc.devRef .tc main_v15) = Cert.ReferenceIdeal.Stages.val_main_v15 (F := Ideal) x1)
    (h0 : W (Proc.devRef .tc main_arg0) = x0) :
    after (hostOps0_2 (F := Ideal)) W (Proc.devRef .tc main_v57) = Cert.ReferenceIdeal.Stages.val_main_v57 (F := Ideal) x0 x1 := by
  simp only [Gen.hostOps0_2]
  after_results_simp
  rw [h5, h6, h7, h15, h0]
  simp only [Cert.ReferenceIdeal.Stages.val_main_v0, Cert.ReferenceIdeal.Stages.val_main_v1, Cert.ReferenceIdeal.Stages.val_main_v2, Cert.ReferenceIdeal.Stages.val_main_v3, Cert.ReferenceIdeal.Stages.val_main_v4, Cert.ReferenceIdeal.Stages.val_main_v5, Cert.ReferenceIdeal.Stages.val_main_v6, Cert.ReferenceIdeal.Stages.val_main_cst, Cert.ReferenceIdeal.Stages.val_main_v7, Cert.ReferenceIdeal.Stages.val_main_cst_0, Cert.ReferenceIdeal.Stages.val_main_v8, Cert.ReferenceIdeal.Stages.val_main_v9, Cert.ReferenceIdeal.Stages.val_main_v10, Cert.ReferenceIdeal.Stages.val_main_cst_1, Cert.ReferenceIdeal.Stages.val_main_v11, Cert.ReferenceIdeal.Stages.val_main_v12, Cert.ReferenceIdeal.Stages.val_main_v13, Cert.ReferenceIdeal.Stages.val_main_cst_2, Cert.ReferenceIdeal.Stages.val_main_v14, Cert.ReferenceIdeal.Stages.val_main_v15, Cert.ReferenceIdeal.Stages.val_main_c, Cert.ReferenceIdeal.Stages.val_main_v16, Cert.ReferenceIdeal.Stages.val_main_v17, Cert.ReferenceIdeal.Stages.val_main_c_3, Cert.ReferenceIdeal.Stages.val_main_v18, Cert.ReferenceIdeal.Stages.val_main_v19, Cert.ReferenceIdeal.Stages.val_main_v20, Cert.ReferenceIdeal.Stages.val_main_v21, Cert.ReferenceIdeal.Stages.val_main_v22, Cert.ReferenceIdeal.Stages.val_main_v23, Cert.ReferenceIdeal.Stages.val_main_c_4, Cert.ReferenceIdeal.Stages.val_main_v24, Cert.ReferenceIdeal.Stages.val_main_v25, Cert.ReferenceIdeal.Stages.val_main_c_5, Cert.ReferenceIdeal.Stages.val_main_v26, Cert.ReferenceIdeal.Stages.val_main_v27, Cert.ReferenceIdeal.Stages.val_main_v28, Cert.ReferenceIdeal.Stages.val_main_v29, Cert.ReferenceIdeal.Stages.val_main_v30, Cert.ReferenceIdeal.Stages.val_main_v31, Cert.ReferenceIdeal.Stages.val_main_v32, Cert.ReferenceIdeal.Stages.val_main_c_6, Cert.ReferenceIdeal.Stages.val_main_v33, Cert.ReferenceIdeal.Stages.val_main_v34, Cert.ReferenceIdeal.Stages.val_main_c_7, Cert.ReferenceIdeal.Stages.val_main_v35, Cert.ReferenceIdeal.Stages.val_main_v36, Cert.ReferenceIdeal.Stages.val_main_v37, Cert.ReferenceIdeal.Stages.val_main_v38, Cert.ReferenceIdeal.Stages.val_main_v39, Cert.ReferenceIdeal.Stages.val_main_v40, Cert.ReferenceIdeal.Stages.val_main_v41, Cert.ReferenceIdeal.Stages.val_main_cst_8, Cert.ReferenceIdeal.Stages.val_main_v42, Cert.ReferenceIdeal.Stages.val_main_v43, Cert.ReferenceIdeal.Stages.val_main_v44, Cert.ReferenceIdeal.Stages.val_main_v45, Cert.ReferenceIdeal.Stages.val_main_c_9, Cert.ReferenceIdeal.Stages.val_main_v46, Cert.ReferenceIdeal.Stages.val_main_v47, Cert.ReferenceIdeal.Stages.val_main_c_10, Cert.ReferenceIdeal.Stages.val_main_v48, Cert.ReferenceIdeal.Stages.val_main_v49, Cert.ReferenceIdeal.Stages.val_main_v50, Cert.ReferenceIdeal.Stages.val_main_v51, Cert.ReferenceIdeal.Stages.val_main_v52, Cert.ReferenceIdeal.Stages.val_main_v53, Cert.ReferenceIdeal.Stages.val_main_v54, Cert.ReferenceIdeal.Stages.val_main_cst_11, Cert.ReferenceIdeal.Stages.val_main_v55, Cert.ReferenceIdeal.Stages.val_main_v56, Cert.ReferenceIdeal.Stages.val_main_v57, Cert.ReferenceIdeal.Stages.val_main_v58, Cert.ReferenceIdeal.Stages.val_main_v59, Cert.ReferenceIdeal.Stages.val_main_v60, Cert.ReferenceIdeal.Stages.val_main_v61, Cert.ReferenceIdeal.Stages.val_main_v62]
  rfl

/-! ### What the region finds -/

set_option maxRecDepth 16384 in
/-- The once propagated features the region finds are the reference's stage `val_main_v44` of the launched x and edge array. -/
theorem host_h1 (c : Dev nD) :
    V m c main_v44 = Cert.ReferenceIdeal.Stages.val_main_v44 (F := Ideal) (m ((c.tc : Thread nD τ).loc main_arg0)) (m ((c.tc : Thread nD τ).loc main_arg1)) := by
  dsimp only [Gen.V]
  simp only [List.flatten_cons, List.flatten_nil, List.append_nil]
  rw [StableHlo.after_append, StableHlo.after_append]
  exact last_main_v44 (after (hostOps0_1 (F := Ideal)) (after (hostOps0 (F := Ideal)) (fun b => m (c, b)))) _ _
    ((where_keeps_main_v5 _).trans (first_main_v5 m c)) ((where_keeps_main_v6 _).trans (first_main_v6 m c))
    ((where_keeps_main_v7 _).trans (first_main_v7 m c)) (where_main_v15 m c)
    ((where_keeps_main_arg0 _).trans (first_main_arg0 m c))

set_option maxRecDepth 16384 in
/-- The twice propagated features the region finds are the reference's stage `val_main_v57` of the launched x and edge array. -/
theorem host_h2 (c : Dev nD) :
    V m c main_v57 = Cert.ReferenceIdeal.Stages.val_main_v57 (F := Ideal) (m ((c.tc : Thread nD τ).loc main_arg0)) (m ((c.tc : Thread nD τ).loc main_arg1)) := by
  dsimp only [Gen.V]
  simp only [List.flatten_cons, List.flatten_nil, List.append_nil]
  rw [StableHlo.after_append, StableHlo.after_append]
  exact last_main_v57 (after (hostOps0_1 (F := Ideal)) (after (hostOps0 (F := Ideal)) (fun b => m (c, b)))) _ _
    ((where_keeps_main_v5 _).trans (first_main_v5 m c)) ((where_keeps_main_v6 _).trans (first_main_v6 m c))
    ((where_keeps_main_v7 _).trans (first_main_v7 m c)) (where_main_v15 m c)
    ((where_keeps_main_arg0 _).trans (first_main_arg0 m c))

set_option maxRecDepth 16384 in
set_option maxHeartbeats 8000000 in
/-- The bias row the region finds: entry (0, q) of the reshaped bias is entry q of the launched bias. -/
theorem host_bias (c : Dev nD) (q : Fin 64) :
    V m c main_v58 (ValueIdx.ix2 (0 : Fin 1) q) = m ((c.tc : Thread nD τ).loc main_arg3) (ValueIdx.ix1 q) := by
  dsimp only [Gen.V]
  simp only [Gen.hostOps0, Gen.hostOps0_1, Gen.hostOps0_2, List.flatten_cons, List.flatten_nil, List.append_nil,
    List.cons_append, List.nil_append]
  after_results_simp
  exact shapeCast_apply (s := S64) (t := S1x64) (m ((c.tc : Thread nD τ).loc main_arg3)) shapeCasts_S64_S1x64
    (ValueIdx.ix2 (0 : Fin 1) q) (ValueIdx.ix1 q)
    (by rewrite [Shape.rowMajor_val_one, Shape.rowMajor_val_two]; show q.val = 0 * 64 + q.val; omega)

end Cert.KernelIdeal.Hand

end
-- ==== Proof.KernelIdealResult.lean ====
/-
  The idealized kernel's result as a function of its arguments.

  After the run the result array holds `linear3` of the five arrays as the region finds them. Two of those are
  arguments no host operation writes (`x` and the weight matrix), one is the bias re-shaped from 64 entries to a
  1×64 row, and two are the feature matrices the host operations before the region compute by propagating `x`
  along the edges — the same operations, one for one, as the reference's. So the result is `linear3` of `x`, the
  two propagated matrices as the reference's stages name them, the weight matrix and the bias.
-/
import proofs.«155070_j50783693308333_2_alg».proof.Proof.KernelIdealValue
import proofs.«155070_j50783693308333_2_alg».proof.Proof.KernelIdealHost

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Cert.PropagatedLinear (linear3)

variable (m : (ℓ : Loc nD τ sig) → Buf (Elt Ideal) ℓ)

/-- The bias row's entries, as a vector, are the bias argument. -/
theorem biasVec_eq (c : Dev nD) : biasVec m c = m ((c.tc : Thread nD τ).loc main_arg3) :=
  funext fun j => by
    have hb : V m c (Pipeline.arrRef spec0 4) (ix2 (0 : Fin 1) (j 0)) = _ := host_bias m c (j 0)
    rw [eq_ix1 j]
    exact hb

/-- The result array's final contents, from the arguments alone. -/
theorem kernel_result (c : Dev nD) :
    wholeResult m c
      = linear3 (m ((c.tc : Thread nD τ).loc main_arg0))
          (Cert.ReferenceIdeal.Stages.val_main_v44 (F := Ideal) (m ((c.tc : Thread nD τ).loc main_arg0)) (m ((c.tc : Thread nD τ).loc main_arg1)))
          (Cert.ReferenceIdeal.Stages.val_main_v57 (F := Ideal) (m ((c.tc : Thread nD τ).loc main_arg0)) (m ((c.tc : Thread nD τ).loc main_arg1)))
          (m ((c.tc : Thread nD τ).loc main_arg2)) (m ((c.tc : Thread nD τ).loc main_arg3)) := by
  have h0 : V m c (Pipeline.arrRef spec0 0) = m ((c.tc : Thread nD τ).loc main_arg0) := V_main_arg0 m c
  have h1 : V m c (Pipeline.arrRef spec0 1) = _ := host_h1 m c
  have h2 : V m c (Pipeline.arrRef spec0 2) = _ := host_h2 m c
  have h3 : V m c (Pipeline.arrRef spec0 3) = m ((c.tc : Thread nD τ).loc main_arg2) := V_main_arg2 m c
  unfold wholeResult
  rw [h0, h1, h2, h3, biasVec_eq m c]

end Cert.KernelIdeal.Hand

end
-- ==== Proof.LibNary3.lean ====
/-
  A host operation with THREE operands given as a literal family of references (a concatenation of three arrays), read
  at its result: the operation's function applied to the three operands' contents, each AT ITS OWN REFERENCE
  (`Fin.cons` of the three) rather than through the family's lookup `![x, a, b] k` — so that a pass reading the
  operands' contents back through the operations before it can go on. The library states this for four operands; this
  is the same for three. Nothing here mentions a program.
-/
import Idealize.ShloMosaic.Lib.StableHlo.Run

namespace Cert.Lib.Nary3

open Idealize.ShloMosaic Idealize.ShloMosaic.StableHlo

variable {τ : Topo} {sig : RefSig} {Val : EltTy → Type} {x a b y : Ref sig .tc}

/-- The result of a three-operand operation, each operand's contents at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a))
          (Fin.cons (F (Proc.devRef .tc b)) (fun i => i.elim0)))) := by
  rw [nary_result]; congr 1; funext k; fin_cases k <;> rfl

/-- The same, in the form a simplifier pass keys on. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a))
          (Fin.cons (F (Proc.devRef .tc b)) (fun i => i.elim0)))) :=
  nary3_result f hxs hy F

end Cert.Lib.Nary3

/-- The buffers' contents after a literal list of host operations, read back in ONE simplifier pass — the library's
    pass with the three-operand lemma above in place of the generic one for an operand family. -/
macro "after_results_simp3" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Cert.Lib.Nary3.nary3_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Idealize.ShloMosaic.StableHlo.nary_result_ne']))
-- ==== Proof.ReferenceRun.lean ====
/-
  The reference program's run.

  The reference is a straight line of 77 array operations on one device, each writing one buffer as a function
  of buffers written before it (or of the program's four arguments). From any memory whose counters are zero,
  every weakly fair execution terminates, and on every device the result buffer then holds the last stage of
  the chain of stages — the composition of the operations' functions applied to the arguments' contents at
  launch — while the four arguments still hold what they held at launch.

  The operations are listed in program order (`ops`); the program is that list run in order (`main_eq`); none
  of its buffers or semaphores is scoped and every operation touches buffers of the device only, which is what
  the general statement about such a line asks (`run_seq`). What a buffer holds after the line is then read
  back operation by operation: an operation's result buffer holds its function of its operands' contents, every
  other buffer what it held before.
-/
import proofs.«155070_j50783693308333_2_alg».proof.Proof.Gen.ReferenceIdeal
import proofs.«155070_j50783693308333_2_alg».proof.Proof.ReferenceStages
import proofs.«155070_j50783693308333_2_alg».proof.Proof.LibNary3
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 77 operations, in order (a called function's operations stand in its call's place, spelt `TRef.…`). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)),
    TRef.ternary (TRef.of (T := ⟨S100000, .i1⟩) main_v12) (TRef.of (T := ⟨S100000, .f32⟩) main_v13) (TRef.of (T := ⟨S100000, .f32⟩) main_v14) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v7 main_v23 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v24 (broadcastInDim S1700000 ![] bcast_S_S1700000 : (⟨S_, .i32⟩ : BufTy).Contents (Elt F) → (⟨S1700000, .i32⟩ : BufTy).Contents (Elt F)),
    binary main_v6 main_v24 main_v25 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v26 (broadcastInDim S1700000 ![] bcast_S_S1700000 : (⟨S_, .i32⟩ : BufTy).Contents (Elt F) → (⟨S1700000, .i32⟩ : BufTy).Contents (Elt F)),
    binary main_v6 main_v26 main_v27 (addi : (⟨S1700000, .i32⟩ : BufTy).Contents (Elt F) → (⟨S1700000, .i32⟩ : BufTy).Contents (Elt F) → (⟨S1700000, .i32⟩ : BufTy).Contents (Elt F)),
    ternary main_v25 main_v27 main_v6 main_v28 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v28 main_v29 (broadcastInDim S1700000x1 ![0] bcast_S1700000_S1700000x1_0 : (⟨S1700000, .i32⟩ : BufTy).Contents (Elt F) → (⟨S1700000x1, .i32⟩ : BufTy).Contents (Elt F)),
    binary main_v15 main_v29 main_v30 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v23 main_v30 main_v31 (mulf : (⟨S1700000, .f32⟩ : BufTy).Contents (Elt F) → (⟨S1700000, .f32⟩ : BufTy).Contents (Elt F) → (⟨S1700000, .f32⟩ : BufTy).Contents (Elt F)),
    unary main_v31 main_v32 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v33 (broadcastInDim S1700000 ![] bcast_S_S1700000 : (⟨S_, .i32⟩ : BufTy).Contents (Elt F) → (⟨S1700000, .i32⟩ : BufTy).Contents (Elt F)),
    binary main_v5 main_v33 main_v34 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v35 (broadcastInDim S1700000 ![] bcast_S_S1700000 : (⟨S_, .i32⟩ : BufTy).Contents (Elt F) → (⟨S1700000, .i32⟩ : BufTy).Contents (Elt F)),
    binary main_v5 main_v35 main_v36 (addi : (⟨S1700000, .i32⟩ : BufTy).Contents (Elt F) → (⟨S1700000, .i32⟩ : BufTy).Contents (Elt F) → (⟨S1700000, .i32⟩ : BufTy).Contents (Elt F)),
    ternary main_v34 main_v36 main_v5 main_v37 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v37 main_v38 (broadcastInDim S1700000x1 ![0] bcast_S1700000_S1700000x1_0 : (⟨S1700000, .i32⟩ : BufTy).Contents (Elt F) → (⟨S1700000x1, .i32⟩ : BufTy).Contents (Elt F)),
    binary main_arg0 main_v38 main_v39 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v32 main_v40 (broadcastInDim S1700000x64 ![0, 1] bcast_S1700000x1_S1700000x64_0_1 : (⟨S1700000x1, .f32⟩ : BufTy).Contents (Elt F) → (⟨S1700000x64, .f32⟩ : BufTy).Contents (Elt F)),
    binary main_v40 main_v39 main_v41 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v42 (broadcastInDim S100000x64 ![] bcast_S_S100000x64 : (⟨S_, .f32⟩ : BufTy).Contents (Elt F) → (⟨S100000x64, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_v31 main_v45 (broadcastInDim S1700000x1 ![0] bcast_S1700000_S1700000x1_0 : (⟨S1700000, .f32⟩ : BufTy).Contents (Elt F) → (⟨S1700000x1, .f32⟩ : BufTy).Contents (Elt F)),
    nullary main_c_9 (constantI S_ 32 0#32),
    unary main_c_9 main_v46 (broadcastInDim S1700000 ![] bcast_S_S1700000 : (⟨S_, .i32⟩ : BufTy).Contents (Elt F) → (⟨S1700000, .i32⟩ : BufTy).Contents (Elt F)),
    binary main_v5 main_v46 main_v47 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v48 (broadcastInDim S1700000 ![] bcast_S_S1700000 : (⟨S_, .i32⟩ : BufTy).Contents (Elt F) → (⟨S1700000, .i32⟩ : BufTy).Contents (Elt F)),
    binary main_v5 main_v48 main_v49 (addi : (⟨S1700000, .i32⟩ : BufTy).Contents (Elt F) → (⟨S1700000, .i32⟩ : BufTy).Contents (Elt F) → (⟨S1700000, .i32⟩ : BufTy).Contents (Elt F)),
    ternary main_v47 main_v49 main_v5 main_v50 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v50 main_v51 (broadcastInDim S1700000x1 ![0] bcast_S1700000_S1700000x1_0 : (⟨S1700000, .i32⟩ : BufTy).Contents (Elt F) → (⟨S1700000x1, .i32⟩ : BufTy).Contents (Elt F)),
    binary main_v44 main_v51 main_v52 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v45 main_v53 (broadcastInDim S1700000x64 ![0, 1] bcast_S1700000x1_S1700000x64_0_1 : (⟨S1700000x1, .f32⟩ : BufTy).Contents (Elt F) → (⟨S1700000x64, .f32⟩ : BufTy).Contents (Elt F)),
    binary main_v53 main_v52 main_v54 (mulf : (⟨S1700000x64, .f32⟩ : BufTy).Contents (Elt F) → (⟨S1700000x64, .f32⟩ : BufTy).Contents (Elt F) → (⟨S1700000x64, .f32⟩ : BufTy).Contents (Elt F)),
    nullary main_cst_11 (constant S_ .f32 0x00000000#32),
    unary main_cst_11 main_v55 (broadcastInDim S100000x64 ![] bcast_S_S100000x64 : (⟨S_, .f32⟩ : BufTy).Contents (Elt F) → (⟨S100000x64, .f32⟩ : BufTy).Contents (Elt F)),
    unary main_v6 main_v56 (broadcastInDim S1700000x1 ![0] bcast_S1700000_S1700000x1_0 : (⟨S1700000, .i32⟩ : BufTy).Contents (Elt F) → (⟨S1700000x1, .i32⟩ : BufTy).Contents (Elt F)),
    ternary main_v55 main_v56 main_v54 main_v57 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    nary ![main_arg0, main_v44, main_v57] main_v58 (fun u => concatenate S100000x192 1 [⟨S100000x64, u 0⟩, ⟨S100000x64, u 1⟩, ⟨S100000x64, u 2⟩] concatenates_S100000x64_S100000x64_S100000x64_S100000x192_d1),
    binary main_v58 main_arg2 main_v59 ((fun l r => Host.dotGeneral dot_S100000x192_S192x64_S100000x64_1_0_0_1_n_n none l r) : (⟨S100000x192, .f32⟩ : BufTy).Contents (Elt F) → (⟨S192x64, .f32⟩ : BufTy).Contents (Elt F) → (⟨S100000x64, .f32⟩ : BufTy).Contents (Elt F)),
    unary main_arg3 main_v60 (broadcastInDim S1x64 ![1] bcast_S64_S1x64_1 : (⟨S64, .f32⟩ : BufTy).Contents (Elt F) → (⟨S1x64, .f32⟩ : BufTy).Contents (Elt F)),
    unary main_v60 main_v61 (broadcastInDim S100000x64 ![0, 1] bcast_S1x64_S100000x64_0_1 : (⟨S1x64, .f32⟩ : BufTy).Contents (Elt F) → (⟨S100000x64, .f32⟩ : BufTy).Contents (Elt F)),
    binary main_v59 main_v61 main_v62 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., nary_bufs_sub .., binary_bufs_sub .., unary_bufs_sub .., unary_bufs_sub .., binary_bufs_sub ..⟩

/-- Three N×64 arrays side by side: the N×192 array whose column 64·g + k is column k of the g-th of them. -/
def cat3 (a0 a1 a2 : (⟨S100000x64, .f32⟩ : BufTy).Contents (Elt F)) : (⟨S100000x192, .f32⟩ : BufTy).Contents (Elt F) :=
  concatenate S100000x192 1 [⟨S100000x64, a0⟩, ⟨S100000x64, a1⟩, ⟨S100000x64, a2⟩] concatenates_S100000x64_S100000x64_S100000x64_S100000x192_d1

/-- What the three-operand concatenation writes: its operands' contents side by side, each operand read at its own
    buffer (so that the operands' contents can in turn be read back through the operations before). -/
theorem concat_result (V : Valuation τ sig (Elt F)) (hxs hy) :
    (nary (τ := τ) ![main_arg0, main_v44, main_v57] main_v58
        (fun u => concatenate S100000x192 1 [⟨S100000x64, u 0⟩, ⟨S100000x64, u 1⟩, ⟨S100000x64, u 2⟩] concatenates_S100000x64_S100000x64_S100000x64_S100000x192_d1)
        hxs hy).result V (no_index (Proc.devRef .tc main_v58))
      = cat3 (F := F) (V (Proc.devRef .tc main_arg0)) (V (Proc.devRef .tc main_v44)) (V (Proc.devRef .tc main_v57)) := by
  rw [Cert.Lib.Nary3.nary3_result]; rfl

set_option maxRecDepth 8192 in
/-- No operation writes the program's argument 0: after the whole line it holds what it held before. -/
theorem arg0_unchanged (V : Valuation τ sig (Elt F)) :
    after (ops (F := F)) V (Proc.devRef .tc main_arg0) = V (Proc.devRef .tc main_arg0) :=
  after_of_forall_not_mem (b := Proc.devRef .tc main_arg0) _ _ (List.forall_iff_forall_mem.mp (by
    simp only [ops, List.Forall, nullary_writes, unary_writes, binary_writes, ternary_writes, quaternary_writes,
      reshape_writes, nary_writes, Finset.mem_singleton]
    repeat' apply And.intro
    all_goals exact devRef_ne_of_ne (by decide)))

set_option maxRecDepth 8192 in
/-- No operation writes the program's argument 1: after the whole line it holds what it held before. -/
theorem arg1_unchanged (V : Valuation τ sig (Elt F)) :
    after (ops (F := F)) V (Proc.devRef .tc main_arg1) = V (Proc.devRef .tc main_arg1) :=
  after_of_forall_not_mem (b := Proc.devRef .tc main_arg1) _ _ (List.forall_iff_forall_mem.mp (by
    simp only [ops, List.Forall, nullary_writes, unary_writes, binary_writes, ternary_writes, quaternary_writes,
      reshape_writes, nary_writes, Finset.mem_singleton]
    repeat' apply And.intro
    all_goals exact devRef_ne_of_ne (by decide)))

set_option maxRecDepth 8192 in
/-- No operation writes the program's argument 2: after the whole line it holds what it held before. -/
theorem arg2_unchanged (V : Valuation τ sig (Elt F)) :
    after (ops (F := F)) V (Proc.devRef .tc main_arg2) = V (Proc.devRef .tc main_arg2) :=
  after_of_forall_not_mem (b := Proc.devRef .tc main_arg2) _ _ (List.forall_iff_forall_mem.mp (by
    simp only [ops, List.Forall, nullary_writes, unary_writes, binary_writes, ternary_writes, quaternary_writes,
      reshape_writes, nary_writes, Finset.mem_singleton]
    repeat' apply And.intro
    all_goals exact devRef_ne_of_ne (by decide)))

set_option maxRecDepth 8192 in
/-- No operation writes the program's argument 3: after the whole line it holds what it held before. -/
theorem arg3_unchanged (V : Valuation τ sig (Elt F)) :
    after (ops (F := F)) V (Proc.devRef .tc main_arg3) = V (Proc.devRef .tc main_arg3) :=
  after_of_forall_not_mem (b := Proc.devRef .tc main_arg3) _ _ (List.forall_iff_forall_mem.mp (by
    simp only [ops, List.Forall, nullary_writes, unary_writes, binary_writes, ternary_writes, quaternary_writes,
      reshape_writes, nary_writes, Finset.mem_singleton]
    repeat' apply And.intro
    all_goals exact devRef_ne_of_ne (by decide)))

set_option maxRecDepth 8192 in
set_option maxHeartbeats 8000000 in
/-- After the whole line the result buffer holds the last stage of the launch contents of the four arguments:
    reading back operation by operation gives the operations' functions composed as a tree; unfolding the chain of
    stages gives the same tree. -/
theorem result_eq (m : (ℓ : Loc nD τ sig) → Buf (Elt F) ℓ) (c : Dev nD) :
    after (ops (F := F)) (launchContents m c) (Proc.devRef .tc main_v62)
      = Stages.val_main_v62 (F := F) (m ((c.tc : Thread nD τ).loc main_arg0)) (m ((c.tc : Thread nD τ).loc main_arg1))
            (m ((c.tc : Thread nD τ).loc main_arg2)) (m ((c.tc : Thread nD τ).loc main_arg3)) := by
  simp (disch := decide) only [after_cons, after_nil,
      nullary_result', unary_result', binary_result', ternary_result', quaternary_result', reshape_result', concat_result,
      nullary_result_ne', unary_result_ne', binary_result_ne', ternary_result_ne', quaternary_result_ne', reshape_result_ne',
      nary_result_ne']
  simp only [Stages.val_main_v0, Stages.val_main_v1, Stages.val_main_v2, Stages.val_main_v3, Stages.val_main_v4, Stages.val_main_v5, Stages.val_main_v6, Stages.val_main_cst, Stages.val_main_v7, Stages.val_main_cst_0, Stages.val_main_v8, Stages.val_main_v9, Stages.val_main_v10, Stages.val_main_cst_1, Stages.val_main_v11, Stages.val_main_v12, Stages.val_main_v13, Stages.val_main_cst_2, Stages.val_main_v14, Stages.val_main_v15, Stages.val_main_c, Stages.val_main_v16, Stages.val_main_v17, Stages.val_main_c_3, Stages.val_main_v18, Stages.val_main_v19, Stages.val_main_v20, Stages.val_main_v21, Stages.val_main_v22, Stages.val_main_v23, Stages.val_main_c_4, Stages.val_main_v24, Stages.val_main_v25, Stages.val_main_c_5, Stages.val_main_v26, Stages.val_main_v27, Stages.val_main_v28, Stages.val_main_v29, Stages.val_main_v30, Stages.val_main_v31, Stages.val_main_v32, Stages.val_main_c_6, Stages.val_main_v33, Stages.val_main_v34, Stages.val_main_c_7, Stages.val_main_v35, Stages.val_main_v36, Stages.val_main_v37, Stages.val_main_v38, Stages.val_main_v39, Stages.val_main_v40, Stages.val_main_v41, Stages.val_main_cst_8, Stages.val_main_v42, Stages.val_main_v43, Stages.val_main_v44, Stages.val_main_v45, Stages.val_main_c_9, Stages.val_main_v46, Stages.val_main_v47, Stages.val_main_c_10, Stages.val_main_v48, Stages.val_main_v49, Stages.val_main_v50, Stages.val_main_v51, Stages.val_main_v52, Stages.val_main_v53, Stages.val_main_v54, Stages.val_main_cst_11, Stages.val_main_v55, Stages.val_main_v56, Stages.val_main_v57, Stages.val_main_v58, Stages.val_main_v59, Stages.val_main_v60, Stages.val_main_v61, Stages.val_main_v62]
  rfl

set_option maxRecDepth 8192 in
set_option maxHeartbeats 30800000 in
/-- On every device, for any float values, from any memory with zero counters: every weakly fair execution of
    the program terminates with the result buffer at the last stage of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v62)
        = Stages.val_main_v62 (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v62).trans (result_eq m c),
      (h c main_arg0).trans (arg0_unchanged (launchContents m c)),
      (h c main_arg1).trans (arg1_unchanged (launchContents m c)),
      (h c main_arg2).trans (arg2_unchanged (launchContents m c)),
      (h c main_arg3).trans (arg3_unchanged (launchContents m c))⟩)
    (run_seq scopedRefs_eq scopedSems_eq defs main (fun _ => ops) main_eq (fun _ => ops_sub) m ρ)

end Cert.ReferenceIdeal.HandRun

end
-- ==== Proof.LibFinGroups.lean ====
/-
  A sum over a·b consecutive naturals, grouped into a groups of b: ∑_{n < a·b} f n = ∑_{g < a} ∑_{j < b} f (b·g + j),
  in any commutative additive monoid.
-/
import Mathlib.Algebra.BigOperators.Fin
import Mathlib.Logic.Equiv.Fin.Basic

open scoped BigOperators

namespace Cert.Lib.FinGroups

/-- The sum over n < a·b of f n is the sum over the a groups of the sums over each group's b members. -/
theorem sum_fin_groups {M : Type*} [AddCommMonoid M] (a b : ℕ) (f : ℕ → M) :
    ∑ n : Fin (a * b), f n.val = ∑ g : Fin a, ∑ j : Fin b, f (b * g.val + j.val) := by
  rw [← Fintype.sum_prod_type']
  refine (Fintype.sum_equiv (finProdFinEquiv (m := a) (n := b)) _ (fun n => f n.val) fun x => ?_).symm
  show f (b * x.1.val + x.2.val) = f (x.2.val + b * x.1.val)
  rw [Nat.add_comm]

end Cert.Lib.FinGroups
-- ==== Proof.ThreeBands.lean ====
/-
  Reading the matrix [a0 | a1 | a2] (three N×64 blocks side by side, N = 100000) column by column, and a
  sum over its 192 columns band by band.

  Column n of [a0 | a1 | a2] lies in block g = n / 64 at that block's column k = n % 64; written the other
  way round, column 64·g + k of the concatenation is column k of block g (g < 3, k < 64). A sum over all
  192 columns is therefore the sum over g of the sums over k, and with three groups that is
  (band 0 + band 1) + band 2 — only commutativity and associativity of addition are used, so it holds on the
  extended reals without any finiteness assumption. Together: row p of [a0 | a1 | a2] against column q of W,
  plus b(q), is `linear3 a0 a1 a2 W b` at (p, q).
-/
import Idealize.ShloMosaic.Lib.Pipeline.Value
import Idealize.ShloMosaic.Lib.ValueIdx
import proofs.«155070_j50783693308333_2_alg».proof.Proof.PropagatedLinear
import proofs.«155070_j50783693308333_2_alg».proof.Proof.LibFinGroups

open scoped BigOperators

noncomputable section

namespace Cert.ThreeBands

open Idealize.ShloMosaic Idealize.ShloMosaic.ValueIdx Cert.PropagatedLinear

/-- The shape of the concatenated matrix: N rows, 192 = 3·64 columns. -/
abbrev SNx192 : Shape := ⟨2, ![100000, 192]⟩

/-- Column `64·g + k` of `[a0 | a1 | a2]` is column `k` of block `g`: the blocks before block `g` take up
    `64·g` columns (0, 64, 128), so the column falls in block `g` at offset `k`, and the row is unchanged. -/
theorem concatenate_bandRow {α : Type} (a0 a1 a2 : SNx64.Idx → α)
    (h : Shape.Concatenates [SNx64, SNx64, SNx64] SNx192 1) (p : Fin 100000) (g : Fin 3) (k : Fin 64) :
    concatenate SNx192 1 [⟨SNx64, a0⟩, ⟨SNx64, a1⟩, ⟨SNx64, a2⟩] h (ix2 p (bandRow g k))
      = (![a0, a1, a2] g) (ix2 p k) := by
  -- off the joined axis (the rows) the block is read at the same coordinate
  have hi : ∀ b : Fin SNx64.rank, b.cast (rfl : SNx64.rank = SNx192.rank) ≠ (1 : Fin SNx192.rank) →
      ((ix2 p k : SNx64.Idx) b).val = ((ix2 p (bandRow g k) : SNx192.Idx) (b.cast rfl)).val := fun b =>
    match b with
    | ⟨0, _⟩ => fun _ => rfl
    | ⟨1, _⟩ => fun hb => absurd (Fin.ext rfl) hb
  -- on the joined axis: (columns before block g) + k = 64·g + k
  match g with
  | ⟨0, _⟩ =>
    exact concatenate_apply_piece (t := SNx192) 1 [⟨SNx64, a0⟩, ⟨SNx64, a1⟩, ⟨SNx64, a2⟩] h _ 0 (by show 0 < 3; omega)
      SNx64 a0 rfl rfl 0 rfl (ix2 p k) hi (by show 0 + k.val = 64 * 0 + k.val; omega)
  | ⟨1, _⟩ =>
    exact concatenate_apply_piece (t := SNx192) 1 [⟨SNx64, a0⟩, ⟨SNx64, a1⟩, ⟨SNx64, a2⟩] h _ 1 (by show 1 < 3; omega)
      SNx64 a1 rfl rfl 64 rfl (ix2 p k) hi (by show 64 + k.val = 64 * 1 + k.val; omega)
  | ⟨2, _⟩ =>
    exact concatenate_apply_piece (t := SNx192) 1 [⟨SNx64, a0⟩, ⟨SNx64, a1⟩, ⟨SNx64, a2⟩] h _ 2 (by show 2 < 3; omega)
      SNx64 a2 rfl rfl 128 rfl (ix2 p k) hi (by show 128 + k.val = 64 * 2 + k.val; omega)

/-- A sum over the 192 = 3·64 rows of the weight matrix is the three band sums added left to right:
    Σ_{n < 192} F n = (Σ_k F(64·0 + k) + Σ_k F(64·1 + k)) + Σ_k F(64·2 + k), in any commutative additive monoid. -/
theorem sum_bands {M : Type*} [AddCommMonoid M] (F : Fin 192 → M) :
    ∑ n : Fin 192, F n
      = (∑ k : Fin 64, F (bandRow 0 k) + ∑ k : Fin 64, F (bandRow 1 k)) + ∑ k : Fin 64, F (bandRow 2 k) := by
  -- `F` extended to all naturals (its value past 191 is never read)
  let f : ℕ → M := fun n => if h : n < 192 then F ⟨n, h⟩ else 0
  have hf : ∀ n : Fin 192, f n.val = F n := fun n => dif_pos n.isLt
  have hg : ∀ (g : Fin 3) (j : Fin 64), f (64 * g.val + j.val) = F (bandRow g j) := fun g j =>
    dif_pos (bandRow g j).isLt
  calc ∑ n : Fin 192, F n = ∑ n : Fin (3 * 64), f n.val := Finset.sum_congr rfl (fun n _ => (hf n).symm)
    _ = ∑ g : Fin 3, ∑ j : Fin 64, f (64 * g.val + j.val) := Cert.Lib.FinGroups.sum_fin_groups 3 64 f
    _ = ∑ g : Fin 3, ∑ j : Fin 64, F (bandRow g j) :=
        Finset.sum_congr rfl fun g _ => Finset.sum_congr rfl fun j _ => hg g j
    _ = _ := Fin.sum_univ_three _

/-- Row `p` of `[a0 | a1 | a2]` against column `q` of `W`, plus `b q`, is `linear3 a0 a1 a2 W b` at `(p, q)`:
    split the 192-term sum into its three bands, and in band `g` the concatenation's column `64·g + k` is
    block `g`'s column `k`. -/
theorem concatenate_dot_add_eq_linear3 (a0 a1 a2 : SNx64.Idx → EReal) (W : S192x64.Idx → EReal) (b : S64.Idx → EReal)
    (h : Shape.Concatenates [SNx64, SNx64, SNx64] SNx192 1) (p : Fin 100000) (q : Fin 64) :
    (∑ n : Fin 192, concatenate SNx192 1 [⟨SNx64, a0⟩, ⟨SNx64, a1⟩, ⟨SNx64, a2⟩] h (ix2 p n) * W (ix2 n q)) + b (ix1 q)
      = linear3 a0 a1 a2 W b (ix2 p q) := by
  have c : ∀ (g : Fin 3) (k : Fin 64),
      concatenate SNx192 1 [⟨SNx64, a0⟩, ⟨SNx64, a1⟩, ⟨SNx64, a2⟩] h (ix2 p (bandRow g k)) * W (ix2 (bandRow g k) q)
        = (![a0, a1, a2] g) (ix2 p k) * W (ix2 (bandRow g k) q) := fun g k => by rw [concatenate_bandRow]
  rw [sum_bands, Finset.sum_congr rfl (fun k _ => c 0 k), Finset.sum_congr rfl (fun k _ => c 1 k),
    Finset.sum_congr rfl (fun k _ => c 2 k)]
  rfl

end Cert.ThreeBands

end
-- ==== Proof.ReferenceIsLinear3.lean ====
/-
  The reference program computes the three-band linear map.

  The reference's last four operations are: the contraction of the concatenated matrix [x | h1 | h2]
  (N×192, N = 100000) with the weight matrix W (192×64), the bias b (64 entries) broadcast to 1×64 and then
  to N×64, and the addition of the two. Read at an index (p, q):

      out(p, q) = Σ_{n < 192} [x | h1 | h2](p, n) · W(n, q) + b(q).

  Column n = 64·g + k of the concatenation is column k of block g (x, h1, h2 for g = 0, 1, 2), and a sum over
  the 192 = 3·64 values of n is the sum of the three sums over k < 64 (addition on the extended reals is
  commutative and associative; nothing else is used). So

      out(p, q) = ((Σ_k x(p, k)·W(k, q) + Σ_k h1(p, k)·W(64 + k, q)) + Σ_k h2(p, k)·W(128 + k, q)) + b(q),

  which is `linear3 x h1 h2 W b` at (p, q). The two propagated matrices h1, h2 are whatever the reference's
  earlier stages make of x and the edge array: nothing about them is used here.
-/
import proofs.«155070_j50783693308333_2_alg».proof.Proof.ReferenceStages
import proofs.«155070_j50783693308333_2_alg».proof.Proof.PropagatedLinear
import proofs.«155070_j50783693308333_2_alg».proof.Proof.ThreeBands
import Idealize.ShloMosaic.Lib.ValueIdx
import Idealize.ShloMosaic.Lib.Pipeline.Value
import Idealize.ShloMosaic.PureOps.Ideal.Laws

open scoped BigOperators

noncomputable section

namespace Cert.ReferenceIdeal.RefValue

open Idealize.ShloMosaic Idealize.ShloMosaic.ValueIdx Cert.ReferenceIdeal Cert.ReferenceIdeal.Gen
  Cert.ReferenceIdeal.Stages Cert.PropagatedLinear

/-- The reference's result is `linear3` of the features, their two propagated copies, the weights and the bias. -/
theorem reference_eq (x0 : (⟨Cert.ReferenceIdeal.S100000x64, .f32⟩ : BufTy).Contents (Elt Ideal))
    (x1 : (⟨Cert.ReferenceIdeal.S2x1600000, .i32⟩ : BufTy).Contents (Elt Ideal))
    (x2 : (⟨Cert.ReferenceIdeal.S192x64, .f32⟩ : BufTy).Contents (Elt Ideal))
    (x3 : (⟨Cert.ReferenceIdeal.S64, .f32⟩ : BufTy).Contents (Elt Ideal)) :
    Cert.ReferenceIdeal.Stages.val_main_v62 (F := Ideal) x0 x1 x2 x3
      = Cert.PropagatedLinear.linear3 x0 (Cert.ReferenceIdeal.Stages.val_main_v44 (F := Ideal) x0 x1)
          (Cert.ReferenceIdeal.Stages.val_main_v57 (F := Ideal) x0 x1) x2 x3 := by
  funext i
  obtain ⟨p, q, rfl⟩ : ∃ (p : Fin 100000) (q : Fin 64), i = ix2 p q := ⟨i 0, i 1, eq_ix2 i⟩
  -- the last four operations at (p, q): the contraction's sum, plus the bias read through its two broadcasts
  rw [val_main_v62_apply, val_main_v59_apply, val_main_v61_apply, val_main_v60_apply]
  -- the indices the operands are read at, by their coordinates
  have e1 : ∀ k : Fin 192, lidx_main_v59 (ix2 p q) k = ix2 p k := fun k =>
    funext fun a => Fin.ext (by match a with | ⟨0, _⟩ => rfl | ⟨1, _⟩ => rfl)
  have e2 : ∀ k : Fin 192, ridx_main_v59 (ix2 p q) k = ix2 k q := fun k =>
    funext fun a => Fin.ext (by match a with | ⟨0, _⟩ => rfl | ⟨1, _⟩ => rfl)
  have e3 : idx_main_v60 (idx_main_v61 (ix2 p q)) = ix1 q :=
    funext fun a => Fin.ext (by match a with | ⟨0, _⟩ => rfl)
  refine Eq.trans ?_ (Cert.ThreeBands.concatenate_dot_add_eq_linear3 x0 (val_main_v44 (F := Ideal) x0 x1)
    (val_main_v57 (F := Ideal) x0 x1) x2 x3 concatenates_S100000x64_S100000x64_S100000x64_S100000x192_d1 p q)
  rw [e3, Ideal.addf_def]
  refine congrArg (· + x3 (ix1 q)) ?_
  exact Finset.sum_congr rfl fun k _ => by rw [e1 k, e2 k]; rfl

end Cert.ReferenceIdeal.RefValue

end
-- ==== Proof.lean ====
/-
  A graph layer's dense tail, row-blocked, against the same layer written with one matrix product.

  Both programs first propagate the N×64 feature matrix `x` (N = 100000) twice along the graph's edges with
  symmetric degree normalisation — gathers and accumulating scatters on the host, the SAME operations in the same
  order in both programs — giving `h1` and `h2`. The reference then forms the N×192 matrix [x | h1 | h2] and
  computes [x | h1 | h2]·W + b with one product. The kernel never forms it: a grid of 25 points takes 4096 rows at
  a time and computes x·W₀ + h1·W₁ + h2·W₂ + b from the three bands W₀, W₁, W₂ of 64 rows of `W`, its operands
  narrowed to a shorter float format on the way.

  On the extended reals the two agree entry by entry: a narrowing is the identity, a product accumulated into
  zeros is the sum over the contracted index, and a sum over 192 = 3·64 indices is the sum of the three sums over
  the groups of 64 (`Cert.PropagatedLinear.linear3` is the common value). Only commutativity and associativity of
  addition are used, so the precondition that the inputs are finite is never opened.

  The grid's last block overhangs the arrays (25·4096 > 100000): its transfers are cut to the 1696 rows inside the
  array, and the rest of its staging buffers holds words nobody names. The frames and the value go through
  because a row of the stored block depends on the same row of the row blocks and on no other row; at the
  word-level instance, where the product is partly uninterpreted, the frame is proved saying nothing of the
  result block.
-/
import proofs.«155070_j50783693308333_2_alg».proof.Defs
import proofs.«155070_j50783693308333_2_alg».proof.Proof.Gen.Kernel
import proofs.«155070_j50783693308333_2_alg».proof.Proof.Gen.KernelIdeal
import proofs.«155070_j50783693308333_2_alg».proof.Proof.Gen.ReferenceIdeal
import proofs.«155070_j50783693308333_2_alg».proof.Proof.Gen.Pre_finite_inputs
import proofs.«155070_j50783693308333_2_alg».proof.Proof.KernelFrame
import proofs.«155070_j50783693308333_2_alg».proof.Proof.KernelIdealResult
import proofs.«155070_j50783693308333_2_alg».proof.Proof.ReferenceRun
import proofs.«155070_j50783693308333_2_alg».proof.Proof.ReferenceIsLinear3
import Idealize.ShloMosaic.Adequacy
import Idealize.ShloMosaic.Init

noncomputable section

namespace Cert.Proof

open Idealize.ShloMosaic Idealize.SL.Sem

/-- The word-level kernel runs to the end, faults nowhere and leaves its arguments as they were. -/
theorem frame_kernel : Cert.frame_Kernel := fun m ρ _ => Cert.Kernel.Hand.frame m ρ

/-- So does the idealized kernel. -/
theorem frame_kernel_ideal : Cert.frame_KernelIdeal := fun m ρ _ => Cert.KernelIdeal.Hand.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- From memories that agree on the arguments both idealized programs end with the result array at `linear3` of
    `x`, the two propagated matrices, the weight matrix and the bias. -/
theorem algebraic : Cert.algebraic_KernelIdeal_ReferenceIdeal := by
  intro m ρ m' ρ' _ hagree
  refine ⟨fun c => Cert.KernelIdeal.Hand.wholeResult m c, Cert.KernelIdeal.Hand.run_value m ρ, ?_⟩
  refine (θ_run Cert.ReferenceIdeal.defs _ _).mono (fun _ h c => ⟨(h c).1.trans ?_, (h c).2⟩)
    (Cert.ReferenceIdeal.HandRun.run (F := Ideal) m' ρ')
  refine Eq.trans ?_ (Cert.KernelIdeal.Hand.kernel_result m c).symm
  rw [(hagree c).1, (hagree c).2.1, (hagree c).2.2.1, (hagree c).2.2.2]
  exact Cert.ReferenceIdeal.RefValue.reference_eq _ _ _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
